-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x80 : Shape := ⟨2, ![262144, 80]⟩
abbrev S_ : Shape := ⟨0, ![]⟩

class Facts : Prop where
  bcast_S_S262144x80 : S_.BroadcastsInDim S262144x80 (![] : Fin 0 → Fin S262144x80.rank)
  reducesTo_S262144x80_S_d0_1 : S262144x80.ReducesTo [0, 1] S_
  h_S_ : 0 < S_.numel

variable [Facts]

def fn {F : FTy → Type} [FloatOps F] (main_arg0 : FVec F S262144x80 .f32) (main_arg1 : IVec S262144x80 32) : IVec S_ 1 :=
  let main_v0 : FVec F S262144x80 .f32 := Host.absf main_arg0
  let main_cst : FVec F S_ .f32 := constant S_ .f32 0x7F800000#32
  let main_v1 : FVec F S262144x80 .f32 := broadcastInDim S262144x80 ![] bcast_S_S262144x80 main_cst
  let main_v2 : IVec S262144x80 1 := cmpf .olt main_v0 main_v1
  let main_c : IVec S_ 1 := constantI S_ 1 1#1
  let main_v3 : IVec S_ 1 := (fun x v => Host.reduce IntOp.andi x v reducesTo_S262144x80_S_d0_1 h_S_) main_v2 main_c
  main_v3
-- ==== Kernel.lean ====
abbrev S262144x80 : Shape := ⟨2, ![262144, 80]⟩
abbrev S2x8x128 : Shape := ⟨3, ![2, 8, 128]⟩
abbrev S8192x80 : Shape := ⟨2, ![8192, 80]⟩
abbrev S1x8x128 : Shape := ⟨3, ![1, 8, 128]⟩
abbrev S8x128 : Shape := ⟨2, ![8, 128]⟩
abbrev S1x128 : Shape := ⟨2, ![1, 128]⟩
abbrev S8192 : Shape := ⟨1, ![8192]⟩
abbrev S8192x1 : Shape := ⟨2, ![8192, 1]⟩
abbrev S1 : Shape := ⟨1, ![1]⟩
abbrev S1x1 : Shape := ⟨2, ![1, 1]⟩
abbrev S1x1x128 : Shape := ⟨3, ![1, 1, 128]⟩
abbrev S1x10 : Shape := ⟨2, ![1, 10]⟩
abbrev S10 : Shape := ⟨1, ![10]⟩
abbrev S_ : Shape := ⟨0, ![]⟩

abbrev nBuf : Space → Nat
  | .hbm => 41
  | .vmem => 6
  | .smem => 0
  | _ => 0

abbrev bufTy : (tb : Table) → Fin (tcTables nBuf tb) → BufTy
  | .hbm, ⟨0, _⟩ => ⟨S262144x80, .f32⟩
  | .hbm, ⟨1, _⟩ => ⟨S262144x80, .i32⟩
  | .hbm, ⟨2, _⟩ => ⟨S2x8x128, .f32⟩
  | .hbm, ⟨3, _⟩ => ⟨S1x8x128, .f32⟩
  | .hbm, ⟨4, _⟩ => ⟨S8x128, .f32⟩
  | .hbm, ⟨5, _⟩ => ⟨S1x8x128, .f32⟩
  | .hbm, ⟨6, _⟩ => ⟨S8x128, .f32⟩
  | .hbm, ⟨7, _⟩ => ⟨S8x128, .f32⟩
  | .hbm, ⟨8, _⟩ => ⟨S1x10, .f32⟩
  | .hbm, ⟨9, _⟩ => ⟨S10, .f32⟩
  | .hbm, ⟨10, _⟩ => ⟨S1x10, .f32⟩
  | .hbm, ⟨11, _⟩ => ⟨S10, .f32⟩
  | .hbm, ⟨12, _⟩ => ⟨S_, .f32⟩
  | .hbm, ⟨13, _⟩ => ⟨S10, .f32⟩
  | .hbm, ⟨14, _⟩ => ⟨S10, .i1⟩
  | .hbm, ⟨15, _⟩ => ⟨S10, .i32⟩
  | .hbm, ⟨16, _⟩ => ⟨S_, .i32⟩
  | .hbm, ⟨17, _⟩ => ⟨S_, .i32⟩
  | .hbm, ⟨18, _⟩ => ⟨S_, .f32⟩
  | .hbm, ⟨19, _⟩ => ⟨S_, .f32⟩
  | .hbm, ⟨20, _⟩ => ⟨S10, .f32⟩
  | .hbm, ⟨21, _⟩ => ⟨S10, .i1⟩
  | .hbm, ⟨22, _⟩ => ⟨S_, .f32⟩
  | .hbm, ⟨23, _⟩ => ⟨S10, .f32⟩
  | .hbm, ⟨24, _⟩ => ⟨S10, .f32⟩
  | .hbm, ⟨25, _⟩ => ⟨S_, .f32⟩
  | .hbm, ⟨26, _⟩ => ⟨S10, .f32⟩
  | .hbm, ⟨27, _⟩ => ⟨S10, .f32⟩
  | .hbm, ⟨28, _⟩ => ⟨S_, .f32⟩
  | .hbm, ⟨29, _⟩ => ⟨S_, .f32⟩
  | .hbm, ⟨30, _⟩ => ⟨S10, .f32⟩
  | .hbm, ⟨31, _⟩ => ⟨S10, .f32⟩
  | .hbm, ⟨32, _⟩ => ⟨S_, .f32⟩
  | .hbm, ⟨33, _⟩ => ⟨S_, .f32⟩
  | .hbm, ⟨34, _⟩ => ⟨S10, .f32⟩
  | .hbm, ⟨35, _⟩ => ⟨S10, .f32⟩
  | .hbm, ⟨36, _⟩ => ⟨S10, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S8192x80, .f32⟩
  | .local _ .vmem, ⟨1, _⟩ => ⟨S8192x80, .f32⟩
  | .local _ .vmem, ⟨2, _⟩ => ⟨S8192x80, .i32⟩
  | .local _ .vmem, ⟨3, _⟩ => ⟨S8192x80, .i32⟩
  | .local _ .vmem, ⟨4, _⟩ => ⟨S1x8x128, .f32⟩
  | .local _ .vmem, ⟨5, _⟩ => ⟨S1x8x128, .f32⟩
  | _, _ => ⟨S262144x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x80 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8192x80_S8192x80_0_0 : ∀ a, (![0, 0] : Fin 2 → Nat) a + S8192x80.size a ≤ S8192x80.size a
  h_S8192x80 : 0 < S8192x80.numel
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  iota_S1x128_d1_w32 : S1x128.Iotas .tc 32 [1]
  natLt_1_32 : 1 < 32
  reduces_S8192x80_S8192 : S8192x80.Reduces [1] S8192
  shapeCasts_S8192_S8192x1 : S8192.ShapeCasts S8192x1
  reduces_S8192x1_S1 : S8192x1.Reduces [0] S1
  shapeCasts_S1_S1x1 : S1.ShapeCasts S1x1
  shapeCasts_S1x1_S1x1 : S1x1.ShapeCasts S1x1
  broadcasts_S1x1_S1x128 : S1x1.Broadcasts S1x128
  inb_S1x8x128_S1x1x128_0_0_0 : ∀ a, (![0, 0, 0] : Fin 3 → Nat) a + S1x1x128.size a ≤ S1x8x128.size a
  h_S1x1x128 : 0 < S1x1x128.numel
  shapeCasts_S1x1x128_S1x128 : S1x1x128.ShapeCasts S1x128
  shapeCasts_S1x128_S1x1x128 : S1x128.ShapeCasts S1x1x128
  inb_S1x8x128_S1x1x128_0_1_0 : ∀ a, (![0, 1, 0] : Fin 3 → Nat) a + S1x1x128.size a ≤ S1x8x128.size a
  slices_S2x8x128_S1x8x128_0_0_0 : S2x8x128.Slices ![0, 0, 0] S1x8x128
  slices_S2x8x128_S1x8x128_1_0_0 : S2x8x128.Slices ![1, 0, 0] S1x8x128
  slices_S8x128_S1x10_0_0 : S8x128.Slices ![0, 0] S1x10
  shapeCasts_S1x10_S10 : S1x10.ShapeCasts S10
  slices_S8x128_S1x10_1_0 : S8x128.Slices ![1, 0] S1x10
  bcast_S_S10 : S_.BroadcastsInDim S10 (![] : Fin 0 → Fin S10.rank)
  reducesTo_S10_S_d0 : S10.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x80.size a ≤ S262144x80.size a
  hwx0_0 : ∀ i : grid0.Coords, EltTy.bits .f32 = 32 ∨ (Rect.block (s := S262144x80) S8192x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x80.size a ≤ S262144x80.size a
  hwx0_1 : ∀ i : grid0.Coords, EltTy.bits .i32 = 32 ∨ (Rect.block (s := S262144x80) S8192x80.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_arg0) S8192x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x80.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x80 : Shape := ⟨2, ![262144, 80]⟩
abbrev S_ : Shape := ⟨0, ![]⟩
abbrev S20971520 : Shape := ⟨1, ![20971520]⟩
abbrev S10 : Shape := ⟨1, ![10]⟩
abbrev S20971520x1 : Shape := ⟨2, ![20971520, 1]⟩
abbrev S262144x80x1 : Shape := ⟨3, ![262144, 80, 1]⟩

abbrev nBuf : Space → Nat
  | .hbm => 86
  | .vmem => 0
  | .smem => 0
  | _ => 0

abbrev bufTy : (tb : Table) → Fin (tcTables nBuf tb) → BufTy
  | .hbm, ⟨0, _⟩ => ⟨S262144x80, .f32⟩
  | .hbm, ⟨1, _⟩ => ⟨S262144x80, .i32⟩
  | .hbm, ⟨2, _⟩ => ⟨S262144x80, .f32⟩
  | .hbm, ⟨3, _⟩ => ⟨S262144x80, .f32⟩
  | .hbm, ⟨4, _⟩ => ⟨S_, .f32⟩
  | .hbm, ⟨5, _⟩ => ⟨S262144x80, .f32⟩
  | .hbm, ⟨6, _⟩ => ⟨S262144x80, .f32⟩
  | .hbm, ⟨7, _⟩ => ⟨S_, .f32⟩
  | .hbm, ⟨8, _⟩ => ⟨S262144x80, .f32⟩
  | .hbm, ⟨9, _⟩ => ⟨S262144x80, .f32⟩
  | .hbm, ⟨10, _⟩ => ⟨S262144x80, .f32⟩
  | .hbm, ⟨11, _⟩ => ⟨S262144x80, .f32⟩
  | .hbm, ⟨12, _⟩ => ⟨S262144x80, .f32⟩
  | .hbm, ⟨13, _⟩ => ⟨S_, .f32⟩
  | .hbm, ⟨14, _⟩ => ⟨S262144x80, .f32⟩
  | .hbm, ⟨15, _⟩ => ⟨S262144x80, .f32⟩
  | .hbm, ⟨16, _⟩ => ⟨S262144x80, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S262144x80, .i32⟩
  | .hbm, ⟨21, _⟩ => ⟨S262144x80, .i32⟩
  | .hbm, ⟨22, _⟩ => ⟨S_, .i32⟩
  | .hbm, ⟨23, _⟩ => ⟨S262144x80, .i32⟩
  | .hbm, ⟨24, _⟩ => ⟨S262144x80, .i32⟩
  | .hbm, ⟨25, _⟩ => ⟨S_, .f32⟩
  | .hbm, ⟨26, _⟩ => ⟨S20971520, .f32⟩
  | .hbm, ⟨27, _⟩ => ⟨S20971520, .i32⟩
  | .hbm, ⟨28, _⟩ => ⟨S_, .f32⟩
  | .hbm, ⟨29, _⟩ => ⟨S10, .f32⟩
  | .hbm, ⟨30, _⟩ => ⟨S20971520x1, .i32⟩
  | .hbm, ⟨31, _⟩ => ⟨S10, .f32⟩
  | .hbm, ⟨32, _⟩ => ⟨S_, .f32⟩
  | .hbm, ⟨33, _⟩ => ⟨S10, .f32⟩
  | .hbm, ⟨34, _⟩ => ⟨S10, .i1⟩
  | .hbm, ⟨35, _⟩ => ⟨S10, .i32⟩
  | .hbm, ⟨36, _⟩ => ⟨S_, .i32⟩
  | .hbm, ⟨37, _⟩ => ⟨S_, .i32⟩
  | .hbm, ⟨38, _⟩ => ⟨S_, .f32⟩
  | .hbm, ⟨39, _⟩ => ⟨S_, .f32⟩
  | .hbm, ⟨40, _⟩ => ⟨S10, .f32⟩
  | .hbm, ⟨41, _⟩ => ⟨S10, .i1⟩
  | .hbm, ⟨42, _⟩ => ⟨S_, .f32⟩
  | .hbm, ⟨43, _⟩ => ⟨S10, .f32⟩
  | .hbm, ⟨44, _⟩ => ⟨S10, .f32⟩
  | .hbm, ⟨45, _⟩ => ⟨S_, .f32⟩
  | .hbm, ⟨46, _⟩ => ⟨S10, .f32⟩
  | .hbm, ⟨47, _⟩ => ⟨S10, .f32⟩
  | .hbm, ⟨48, _⟩ => ⟨S_, .f32⟩
  | .hbm, ⟨49, _⟩ => ⟨S_, .f32⟩
  | .hbm, ⟨50, _⟩ => ⟨S10, .f32⟩
  | .hbm, ⟨51, _⟩ => ⟨S10, .f32⟩
  | .hbm, ⟨52, _⟩ => ⟨S_, .i32⟩
  | .hbm, ⟨53, _⟩ => ⟨S262144x80, .i32⟩
  | .hbm, ⟨54, _⟩ => ⟨S262144x80, .i1⟩
  | .hbm, ⟨55, _⟩ => ⟨S_, .i32⟩
  | .hbm, ⟨56, _⟩ => ⟨S262144x80, .i32⟩
  | .hbm, ⟨57, _⟩ => ⟨S262144x80, .i32⟩
  | .hbm, ⟨58, _⟩ => ⟨S262144x80, .i32⟩
  | .hbm, ⟨59, _⟩ => ⟨S262144x80x1, .i32⟩
  | .hbm, ⟨60, _⟩ => ⟨S262144x80, .f32⟩
  | .hbm, ⟨61, _⟩ => ⟨S_, .f32⟩
  | .hbm, ⟨62, _⟩ => ⟨S_, .f32⟩
  | .hbm, ⟨63, _⟩ => ⟨S262144x80, .f32⟩
  | .hbm, ⟨64, _⟩ => ⟨S262144x80, .f32⟩
  | .hbm, ⟨65, _⟩ => ⟨S_, .f32⟩
  | .hbm, ⟨66, _⟩ => ⟨S262144x80, .f32⟩
  | .hbm, ⟨67, _⟩ => ⟨S262144x80, .f32⟩
  | .hbm, ⟨68, _⟩ => ⟨S262144x80, .f32⟩
  | .hbm, ⟨69, _⟩ => ⟨S262144x80, .f32⟩
  | .hbm, ⟨70, _⟩ => ⟨S262144x80, .i1⟩
  | .hbm, ⟨71, _⟩ => ⟨S262144x80, .f32⟩
  | .hbm, ⟨72, _⟩ => ⟨S262144x80, .f32⟩
  | .hbm, ⟨73, _⟩ => ⟨S262144x80, .f32⟩
  | .hbm, ⟨74, _⟩ => ⟨S262144x80, .f32⟩
  | .hbm, ⟨75, _⟩ => ⟨S262144x80, .f32⟩
  | .hbm, ⟨76, _⟩ => ⟨S262144x80, .f32⟩
  | .hbm, ⟨77, _⟩ => ⟨S262144x80, .f32⟩
  | .hbm, ⟨78, _⟩ => ⟨S262144x80, .f32⟩
  | .hbm, ⟨79, _⟩ => ⟨S262144x80, .f32⟩
  | .hbm, ⟨80, _⟩ => ⟨S262144x80, .f32⟩
  | .hbm, ⟨81, _⟩ => ⟨S262144x80, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S262144x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_c_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_v25 : Ref sig .tc := ⟨.hbm, 43, rfl⟩
abbrev main_v26 : Ref sig .tc := ⟨.hbm, 44, rfl⟩
abbrev main_cst_9 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_call1_v0 : Ref sig .tc := ⟨.hbm, 49, rfl⟩
abbrev main_call1_v1 : Ref sig .tc := ⟨.hbm, 50, rfl⟩
abbrev main_v29 : Ref sig .tc := ⟨.hbm, 51, rfl⟩
abbrev main_c_11 : Ref sig .tc := ⟨.hbm, 52, rfl⟩
abbrev main_v30 : Ref sig .tc := ⟨.hbm, 53, rfl⟩
abbrev main_v31 : Ref sig .tc := ⟨.hbm, 54, rfl⟩
abbrev main_c_12 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_13 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call2_cst : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_14 : Ref sig .tc := ⟨.hbm, 82, rfl⟩
abbrev main_v44 : Ref sig .tc := ⟨.hbm, 83, rfl⟩
abbrev main_cst_15 : Ref sig .tc := ⟨.hbm, 84, rfl⟩
abbrev main_v45 : Ref sig .tc := ⟨.hbm, 85, rfl⟩

abbrev nD : Nat := 1
abbrev τ : Topo := Topo.v7x

variable {F : FTy → Type} [FloatOps F]

class Facts₀ : Prop where
  bcast_S_S262144x80 : S_.BroadcastsInDim S262144x80 (![] : Fin 0 → Fin S262144x80.rank)
  bcast_S_S20971520 : S_.BroadcastsInDim S20971520 (![] : Fin 0 → Fin S20971520.rank)
  shapeCasts_S262144x80_S20971520 : S262144x80.ShapeCasts S20971520
  bcast_S_S10 : S_.BroadcastsInDim S10 (![] : Fin 0 → Fin S10.rank)
  bcast_S20971520_S20971520x1_0 : S20971520.BroadcastsInDim S20971520x1 (![0] : Fin 1 → Fin S20971520x1.rank)
  natLt_1_32 : 1 < 32
  reducesTo_S10_S_d0 : S10.ReducesTo [0] S_
  h_S_ : 0 < S_.numel
  bcast_S262144x80_S262144x80x1_0_1 : S262144x80.BroadcastsInDim S262144x80x1 (![0, 1] : Fin 2 → Fin S262144x80x1.rank)
  reducesTo_S262144x80_S_d0_1 : S262144x80.ReducesTo [0, 1] S_
  scatter_S10_S20971520x1_S20971520_n_0_0_1_wf : ScatterDims.WF S10 S20971520x1 S20971520 [] [0] [0] 1
  gather_S10_S262144x80x1_S262144x80_n_0_n_n_0_2_1_wf : GatherDims.WF S10 S262144x80x1 S262144x80 [] [0] [] [0] [] 2 ![1]

variable [Facts₀]

def scatter_S10_S20971520x1_S20971520_n_0_0_1 : ScatterDims S10 S20971520x1 S20971520 where
  updateWindowDims := []
  insertedWindowDims := [0]
  scatterDimsToOperandDims := [0]
  indexVectorDim := 1
  wf := scatter_S10_S20971520x1_S20971520_n_0_0_1_wf
def gather_S10_S262144x80x1_S262144x80_n_0_n_n_0_2_1 : GatherDims S10 S262144x80x1 S262144x80 where
  offsetDims := []
  collapsedSliceDims := [0]
  operandBatchingDims := []
  startIndicesBatchingDims := []
  startIndexMap := [0]
  indexVectorDim := 2
  sliceSizes := ![1]
  wf := gather_S10_S262144x80x1_S262144x80_n_0_n_n_0_2_1_wf

class Facts : Prop extends Facts₀ where

variable [Facts]
-- ==== Proof.GhmSpec.lean ====
/-
  The gradient-harmonised classification loss, as functions on the extended reals.

  For a prediction `p` and an integer label `t`: `z = 1/(1 + e^(-p))`, the bin is `⌊10·|z − t|⌋` clipped to `0 … 9`,
  and the cross-entropy term is `softplus z − t·z` with `softplus z = max z 0 + log(1 + e^(−|z|))`.
  Over an array of 262144 × 80 entries, bin `b` has a count `C b` (how many entries fall in it) and a total `S b` (the sum of
  their cross-entropy terms); bin `b` weighs `w b = (N / max (C b) 1  if C b > 0, else 0) / max n 1`, `N = 262144·80` and
  `n` the number of nonempty bins; the loss is `(∑ over entries of w(bin of the entry) · term) / N`, which — every term and
  weight being a real number — is `(∑ over bins of w b · S b) / N`.
-/
import Idealize.ShloMosaic.PureOps.Ideal
import Idealize.ShloMosaic.Lib.ValueIdx

noncomputable section

namespace Ghm

open Idealize.ShloMosaic Idealize.ShloMosaic.ValueIdx

/-- The two argument arrays' shape, the per-bin vectors' shape, the scalar shape. -/
abbrev Arr : Shape := ⟨2, ![262144, 80]⟩
abbrev Bins : Shape := ⟨1, ![10]⟩
abbrev Sc : Shape := ⟨0, ![]⟩

/-- The f32 constants both programs spell, read on the extended reals: 0, 1, 10 and N = 20971520. -/
abbrev c0 : EReal := Ideal.ofBits .f32 0x00000000#32
abbrev c1 : EReal := Ideal.ofBits .f32 0x3F800000#32
abbrev c10 : EReal := Ideal.ofBits .f32 0x41200000#32
abbrev cN : EReal := Ideal.ofBits .f32 0x4BA00000#32

/-! ## One entry -/

/-- The logistic of the prediction. -/
def zOf (p : EReal) : EReal := Ideal.logistic p
/-- The label as a number. -/
def tOf (t : BitVec 32) : EReal := ((t.toInt : ℝ) : EReal)
/-- The entry's bin, as a 32-bit word: ten times the distance of `z` from the label, truncated, clipped to `0 … 9`. -/
def binOf (p : EReal) (t : BitVec 32) : BitVec 32 :=
  IntOp.minsi 9#32 (IntOp.maxsi 0#32 (Ideal.fptosi 32 (max (zOf p - tOf t) (-(zOf p - tOf t)) * c10)))
/-- The entry's cross-entropy term `softplus z − t·z`. -/
def bceOf (p : EReal) (t : BitVec 32) : EReal :=
  (max (zOf p) c0 + Ideal.log1p (Ideal.exp (-(max (zOf p - c0) (-(zOf p - c0)))))) - tOf t * zOf p

/-- A word clipped to `0 … 9` (as signed numbers) is below ten. -/
theorem clip_lt (v : BitVec 32) : (IntOp.minsi 9#32 (IntOp.maxsi 0#32 v)).toNat < 10 := by
  unfold IntOp.minsi IntOp.maxsi
  by_cases h1 : v.slt 0#32 = true
  · rw [if_pos h1]
    by_cases h2 : (9#32).slt 0#32 = true
    · rw [if_pos h2]; decide
    · rw [if_neg h2]; decide
  · rw [if_neg h1]
    by_cases h2 : (9#32).slt v = true
    · rw [if_pos h2]; decide
    · rw [if_neg h2]
      simp only [BitVec.slt, decide_eq_true_eq, BitVec.toInt_eq_toNat_cond] at h1 h2
      simp at h1 h2
      omega

/-- An entry's bin is one of the ten. -/
theorem binOf_lt (p : EReal) (t : BitVec 32) : (binOf p t).toNat < 10 := clip_lt _

/-! ## The array -/

section Array
variable (P : Arr.Idx → EReal) (T : Arr.Idx → BitVec 32)

/-- Entry (r, c)'s bin and term. -/
def binAt (r : Fin 262144) (c : Fin 80) : BitVec 32 := binOf (P (ix2 r c)) (T (ix2 r c))
def bceAt (r : Fin 262144) (c : Fin 80) : EReal := bceOf (P (ix2 r c)) (T (ix2 r c))

/-- Bin `b`'s count and total. -/
def count (b : Fin 10) : EReal := ∑ r : Fin 262144, ∑ c : Fin 80, if binAt P T r c = BitVec.ofNat 32 b.val then (1 : EReal) else 0
def total (b : Fin 10) : EReal := ∑ r : Fin 262144, ∑ c : Fin 80, if binAt P T r c = BitVec.ofNat 32 b.val then bceAt P T r c else 0

/-- Entry (r, c)'s bin as one of the ten, and the word it is. -/
def binFin (r : Fin 262144) (c : Fin 80) : Fin 10 := ⟨(binAt P T r c).toNat, binOf_lt _ _⟩
theorem binAt_eq (r : Fin 262144) (c : Fin 80) : binAt P T r c = BitVec.ofNat 32 (binFin P T r c).val := by
  simp [binFin]

end Array

/-! ## The weights and the loss -/

/-- A bin's weight before the division by the number of nonempty bins, from its count. -/
def binWeight (C : EReal) : EReal := Scalar.select (Ideal.cmp .ogt C c0) (Ideal.div cN (max C c1)) c0
/-- The divisor `max n 1`, from the 32-bit count `n` of nonempty bins. -/
def normOf (n : BitVec 32) : EReal := max (((n.toInt : ℝ) : ℝ) : EReal) c1
/-- The 32-bit count of nonempty bins as both host programs form it from the vector of counts: the integer sum over the ten bins of
    the bit "count above zero". (The shape relations the operations ask for are taken as arguments; any proofs of them give the same word.) -/
def nWord (C : Fin 10 → EReal) (hb : Sc.BroadcastsInDim Bins (![] : Fin 0 → Fin Bins.rank)) (hr : Bins.ReducesTo [0] Sc)
    (hS : 0 < Sc.numel) (hlt : 1 < 32) : BitVec 32 :=
  Host.reduce IntOp.addi
    (extui 32 (cmpf (F := Ideal) .ogt (fun j : Bins.Idx => C (j 0)) (broadcastInDim Bins ![] hb (constant (F := Ideal) Sc .f32 0x00000000#32))) hlt)
    (constantI Sc 32 0#32) hr hS ix0

/-- Bin `b`'s weight, given the counts and the word `n`. -/
def weight (C : Fin 10 → EReal) (n : BitVec 32) (b : Fin 10) : EReal := Ideal.div (binWeight (C b)) (normOf n)

/-- The loss formed from the per-bin totals. -/
def lossByBins (C S : Fin 10 → EReal) (n : BitVec 32) : EReal :=
  Ideal.div (c0 + ∑ b : Fin 10, weight C n b * S b) cN
/-- The loss formed entry by entry, each entry weighted by its bin's weight (`k r c` the entry's bin). -/
def lossByEntries (C : Fin 10 → EReal) (n : BitVec 32) (k : Fin 262144 → Fin 80 → Fin 10) (x : Fin 262144 → Fin 80 → EReal) : EReal :=
  Ideal.div (c0 + ∑ r : Fin 262144, ∑ c : Fin 80, weight C n (k r c) * x r c) cN

end Ghm

end
-- ==== Proof.LibSegmentOps.lean ====
/-
  Segment sums and row gathers read at an index

  A graph layer sums, for every node, a value carried by each edge that ends at it, and reads, for every edge, a value
  carried by the node it starts from. In StableHLO the first is a `scatter` whose body adds, over an index array of shape
  `[M, 1]` (one node number per edge), and the second a `gather` over the same kind of index array. This file reads
  both at one element, at the ideal instance (a float is an extended real), for a vector of node values (`[N]`) and for
  a matrix of node rows (`[N, C]`):

  * `scatterAdd1_apply` / `scatterAdd2_apply`: element `i` (or `(i, o)`) of the accumulated array is the operand's
    element plus the sum, over the edges `e` whose index word read as a signed integer is `i`, of update `e` (or
    `(e, o)`); an edge whose index is outside `[0, N)` contributes to no element.
  * `gather1_apply` / `gather2_apply`: element `e` (or `(e, o)`) of the gathered array is the operand at the index word of
    edge `e` read as a signed integer and clamped into `[0, N - 1]`.

  The dimension numbers are abbreviations that take the proof of their side conditions as an argument, so a record with the
  same field lists is one of them by `rfl`.
-/
import Idealize.ShloMosaic.PureOps.Ideal
import Idealize.ShloMosaic.Lib.ValueIdx

noncomputable section

open scoped BigOperators

namespace Idealize.ShloMosaic.SegmentOps

open Idealize.ShloMosaic Idealize.ShloMosaic.ValueIdx

/-! ## Two general facts -/

/-- A rank-1 index set is its coordinate range. -/
def idxEquiv1 {n : Nat} : (⟨1, ![n]⟩ : Shape).Idx ≃ Fin n where
  toFun j := j 0
  invFun a := ix1 a
  left_inv j := (eq_ix1 j).symm
  right_inv _ := rfl

/-- An update index `j` lands at the operand index `i` exactly when, on every operand axis, the start read off the
    scatter indices plus the window coordinate is `i`'s coordinate (so in particular is inside the operand). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro he a
      have h1 := congrFun (Option.some.inj he) a
      have h2 := congrArg Fin.val h1
      simp only at h2
      have := h a
      omega
    · intro he
      refine congrArg some (funext fun a => Fin.ext ?_)
      have := he a
      simp only
      omega
  · rename_i h
    constructor
    · intro he; exact absurd he (by simp)
    · intro he
      exact absurd (fun a => by have := he a; have := (i a).isLt; omega) h

/-- An operand axis is kept by a scatter's window exactly when it is not an inserted axis. -/
theorem mem_sKept {s si u : Shape} (d : ScatterDims s si u) (a : Fin s.rank) :
    a ∈ d.sKept ↔ a ∉ d.insertedWindowDims := by
  simp [ScatterDims.sKept, Shape.kept, List.mem_filter, List.mem_finRange]

/-! ## Gathering node values along the edges -/

section Gather
variable {α : Type}

/-- The dimension numbers of the gather of a vector of node values `[N]` at an index array `[M, 1]`: the one operand
    axis is collapsed and named by the start index map, every slice is one element, and the index vector lies along axis 1. -/
abbrev rowDims1 (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The gather of a vector read at edge `e`: the operand at the index word of `e`, read signed and clamped into
    `[0, N - 1]`. -/
theorem gather1_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (rowDims1 N M wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (rowDims1 N M wf).start (ix1 e) idx 0 + (rowDims1 N M wf).batchCoord (ix1 e) 0
    + (rowDims1 N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowDims1 N M wf).startIndexMap from List.mem_singleton.mpr rfl)]
  have hsi : (rowDims1 N M wf).siIdx (ix1 e) ⟨List.idxOf (0 : Fin 1) (rowDims1 N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The dimension numbers of the gather of a matrix of node rows `[N, C]` at an index array `[M, 1]`: the row axis
    is collapsed and named by the start index map, a slice is one whole row, which fills the result's axis 1, and the index
    vector lies along axis 1. -/
abbrev rowDims2 (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The gather of rows read at edge `e` and column `o`: column `o` of the operand's row at the index word of `e`, read
    signed and clamped into `[0, N - 1]`. -/
theorem gather2_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (o : Fin C) :
    Host.gather (rowDims2 N C M wf) x idx (ix2 e o)
      = x (ix2 ⟨min (idx (ix2 e 0)).toInt.toNat (N - 1), by omega⟩ o) := by
  unfold Host.gather
  congr 1
  funext a
  refine Fin.ext ?_
  match a with
  | ⟨0, _⟩ =>
    show (rowDims2 N C M wf).start (ix2 e o) idx 0 + (rowDims2 N C M wf).batchCoord (ix2 e o) 0
      + (rowDims2 N C M wf).offCoord (ix2 e o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims2 N C M wf).startIndexMap from List.mem_singleton.mpr rfl)]
    have hsi : (rowDims2 N C M wf).siIdx (ix2 e o) ⟨List.idxOf (0 : Fin 2) (rowDims2 N C M wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims2 N C M wf).start (ix2 e o) idx 1 + (rowDims2 N C M wf).batchCoord (ix2 e o) 1
      + (rowDims2 N C M wf).offCoord (ix2 e o) 1 = _
    have h1 : (1 : Fin 2) ∉ (rowDims2 N C M wf).startIndexMap := by
      intro h; exact absurd (List.mem_singleton.mp h) (show ¬((1 : Fin 2) = 0) by decide)
    have h2 : (1 : Fin 2) ∈ (rowDims2 N C M wf).sKept :=
      (GatherDims.mem_sKept _ _).mpr ⟨fun h => absurd (List.mem_singleton.mp h) (show ¬((1 : Fin 2) = 0) by decide), List.not_mem_nil⟩
    rw [GatherDims.batchCoord_eq_zero _ _ _ List.not_mem_nil]
    unfold GatherDims.start GatherDims.offCoord
    rw [dif_neg h1, dif_pos h2]
    simp only [Nat.add_zero, Nat.zero_add]
    rfl

end Gather

/-! ## Summing edge values into the nodes -/

section ScatterAdd
variable {φ : FTy}

/-- The dimension numbers of the accumulation of a vector of edge values `[M]` into a vector of node values `[N]` at an
    index array `[M, 1]`: an update is a single element (no window axis), the one operand axis is inserted and named by
    the index vector, which lies along axis 1. -/
abbrev addDims1 (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Edge `e`'s value lands at node `i` exactly when the index word of `e`, read signed, is `i`. -/
theorem addDims1_lands {N M w : Nat} (wf : ScatterDims.WF ⟨1, ![N]⟩ ⟨2, ![M, 1]⟩ ⟨1, ![M]⟩ [] [0] [0] 1)
    (idx : IVec ⟨2, ![M, 1]⟩ w) (e : Fin M) (i : Fin N) :
    (addDims1 N M wf).resultIdx? (ix1 e) idx = some (ix1 i) ↔ (idx (ix2 e 0)).toInt = (i.val : Int) := by
  rw [resultIdx?_eq_some_iff]
  have hstart : (addDims1 N M wf).start (ix1 e) idx 0 = (idx (ix2 e 0)).toInt := by
    unfold ScatterDims.start
    rw [dif_pos (show (0 : Fin 1) ∈ (addDims1 N M wf).scatterDimsToOperandDims from List.mem_singleton.mpr rfl)]
    have hsi : (addDims1 N M wf).siIdx (ix1 e) ⟨List.idxOf (0 : Fin 1) (addDims1 N M wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hwin : (addDims1 N M wf).window (ix1 e) 0 = 0 := by
    unfold ScatterDims.window
    rw [dif_neg (fun h => (mem_sKept _ _).mp h (List.mem_singleton.mpr rfl))]
  constructor
  · intro h
    have h0 : (addDims1 N M wf).start (ix1 e) idx 0 + (((addDims1 N M wf).window (ix1 e) 0 : Nat) : Int)
        = (i.val : Int) := h 0
    rw [hstart, hwin] at h0
    simpa using h0
  · intro h a
    obtain rfl : a = 0 := Subsingleton.elim _ _
    show (addDims1 N M wf).start (ix1 e) idx 0 + (((addDims1 N M wf).window (ix1 e) 0 : Nat) : Int) = (i.val : Int)
    rw [hstart, hwin]
    simpa using h

/-- The accumulated vector read at node `i`: the operand's element plus the sum of the updates of the edges whose index
    word, read signed, is `i`. -/
theorem scatterAdd1_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (addDims1 N M wf) x idx upd (ix1 i)
      = x (ix1 i) + ∑ e ∈ Finset.univ.filter (fun e : Fin M => (idx (ix2 e 0)).toInt = (i.val : Int)),
          upd (ix1 e) := by
  show Ideal.hostScatterAdd (addDims1 N M wf) x idx upd (ix1 i) = _
  unfold Ideal.hostScatterAdd
  congr 1
  rw [Finset.sum_filter, Finset.sum_filter, ← Equiv.sum_comp (idxEquiv1 (n := M)).symm]
  refine Finset.sum_congr rfl fun e _ => ?_
  show (if (addDims1 N M wf).resultIdx? (ix1 e) idx = some (ix1 i) then upd (ix1 e) else 0) = _
  by_cases h : (idx (ix2 e 0)).toInt = (i.val : Int)
  · rw [if_pos ((addDims1_lands wf idx e i).mpr h), if_pos h]
  · rw [if_neg (fun h' => h ((addDims1_lands wf idx e i).mp h')), if_neg h]

/-- The dimension numbers of the accumulation of a matrix of edge rows `[M, C]` into a matrix of node rows `[N, C]` at
    an index array `[M, 1]`: an update is one whole row (axis 1 of the updates is the window, laid on axis 1 of the
    operand), the row axis of the operand is inserted and named by the index vector, which lies along axis 1. -/
abbrev addDims2 (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Column `o'` of edge `e`'s row lands at column `o` of node `i` exactly when the index word of `e`, read signed, is
    `i` and the columns are the same. -/
theorem addDims2_lands {N C M w : Nat} (wf : ScatterDims.WF ⟨2, ![N, C]⟩ ⟨2, ![M, 1]⟩ ⟨2, ![M, C]⟩ [1] [0] [0] 1)
    (idx : IVec ⟨2, ![M, 1]⟩ w) (e : Fin M) (o' : Fin C) (i : Fin N) (o : Fin C) :
    (addDims2 N C M wf).resultIdx? (ix2 e o') idx = some (ix2 i o)
      ↔ (idx (ix2 e 0)).toInt = (i.val : Int) ∧ o' = o := by
  rw [resultIdx?_eq_some_iff]
  have hstart0 : (addDims2 N C M wf).start (ix2 e o') idx 0 = (idx (ix2 e 0)).toInt := by
    unfold ScatterDims.start
    rw [dif_pos (show (0 : Fin 2) ∈ (addDims2 N C M wf).scatterDimsToOperandDims from List.mem_singleton.mpr rfl)]
    have hsi : (addDims2 N C M wf).siIdx (ix2 e o') ⟨List.idxOf (0 : Fin 2) (addDims2 N C M wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hstart1 : (addDims2 N C M wf).start (ix2 e o') idx 1 = 0 := by
    unfold ScatterDims.start
    rw [dif_neg (fun h => absurd (List.mem_singleton.mp h) (show ¬((1 : Fin 2) = 0) by decide))]
  have hwin0 : (addDims2 N C M wf).window (ix2 e o') 0 = 0 := by
    unfold ScatterDims.window
    rw [dif_neg (fun h => (mem_sKept _ _).mp h (List.mem_singleton.mpr rfl))]
  have hwin1 : (addDims2 N C M wf).window (ix2 e o') 1 = o'.val := by
    unfold ScatterDims.window
    rw [dif_pos ((mem_sKept _ _).mpr
      (fun h => absurd (List.mem_singleton.mp h) (show ¬((1 : Fin 2) = 0) by decide)))]
    rfl
  constructor
  · intro h
    have h0 : (addDims2 N C M wf).start (ix2 e o') idx 0 + (((addDims2 N C M wf).window (ix2 e o') 0 : Nat) : Int)
        = (i.val : Int) := h 0
    have h1 : (addDims2 N C M wf).start (ix2 e o') idx 1 + (((addDims2 N C M wf).window (ix2 e o') 1 : Nat) : Int)
        = (o.val : Int) := h 1
    rw [hstart0, hwin0] at h0
    rw [hstart1, hwin1] at h1
    exact ⟨by simpa using h0, Fin.ext (by omega)⟩
  · rintro ⟨h, rfl⟩ a
    match a with
    | ⟨0, _⟩ =>
      show (addDims2 N C M wf).start (ix2 e o') idx 0 + (((addDims2 N C M wf).window (ix2 e o') 0 : Nat) : Int)
        = (i.val : Int)
      rw [hstart0, hwin0]
      simpa using h
    | ⟨1, _⟩ =>
      show (addDims2 N C M wf).start (ix2 e o') idx 1 + (((addDims2 N C M wf).window (ix2 e o') 1 : Nat) : Int)
        = (o'.val : Int)
      rw [hstart1, hwin1]
      simp

/-- The accumulated matrix read at node `i` and column `o`: the operand's element plus the sum, over the edges whose
    index word read signed is `i`, of column `o` of the edge's update row. -/
theorem scatterAdd2_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (i : Fin N) (o : Fin C) :
    Host.scatterAdd (F := Ideal) (φ := φ) (addDims2 N C M wf) x idx upd (ix2 i o)
      = x (ix2 i o) + ∑ e ∈ Finset.univ.filter (fun e : Fin M => (idx (ix2 e 0)).toInt = (i.val : Int)),
          upd (ix2 e o) := by
  show Ideal.hostScatterAdd (addDims2 N C M wf) x idx upd (ix2 i o) = _
  unfold Ideal.hostScatterAdd
  congr 1
  rw [Finset.sum_filter, Finset.sum_filter, sum_idx2]
  refine Finset.sum_congr rfl fun e _ => ?_
  by_cases h : (idx (ix2 e 0)).toInt = (i.val : Int)
  · rw [if_pos h, Finset.sum_eq_single o]
    · exact if_pos ((addDims2_lands wf idx e o i o).mpr ⟨h, rfl⟩)
    · intro b _ hb
      exact if_neg (fun h' => hb ((addDims2_lands wf idx e b i o).mp h').2)
    · intro ho
      exact absurd (Finset.mem_univ o) ho
  · rw [if_neg h]
    exact Finset.sum_eq_zero fun b _ => if_neg (fun h' => h ((addDims2_lands wf idx e b i o).mp h').1)

end ScatterAdd

end Idealize.ShloMosaic.SegmentOps

end
-- ==== Proof.LibSumSplit.lean ====
import Mathlib.Algebra.BigOperators.Fin
import Mathlib.Data.Fintype.BigOperators
import Mathlib.Logic.Equiv.Fin.Basic

/-!
# Sums over an index range cut into equal blocks

For any additive commutative monoid:

* `SumSplit.sum_blocks`: a sum over `Fin (n * b)` is the sum over the `n` blocks of the sums over the `b` positions
  inside a block, the position `s` of block `kk` being the index `b * kk + s`; `SumSplit.sum_4096` is the case
  `4096 = 8 * 512`.
* `SumSplit.nest8`: eight terms added one after the other onto zero are the sum over `Fin 8`.
* `SumSplit.accUpTo` adds the first `n` terms of a sequence one after the other onto zero, and
  `SumSplit.accUpTo_eq_sum` says that this is the sum over `Fin n`.
-/

open scoped BigOperators

namespace SumSplit

variable {M : Type*} [AddCommMonoid M]

/-- Position `s` of block `kk`, of `n` blocks of `b` positions each, lies below `n * b`. -/
theorem blk_lt {n b : ℕ} (kk : Fin n) (s : Fin b) : b * kk.val + s.val < n * b :=
  calc b * kk.val + s.val < b * kk.val + b := Nat.add_lt_add_left s.isLt _
    _ = b * (kk.val + 1) := (Nat.mul_succ b kk.val).symm
    _ ≤ b * n := Nat.mul_le_mul_left b kk.isLt
    _ = n * b := Nat.mul_comm b n

/-- A sum over `n * b` indices is the sum, over the `n` blocks, of the sums over the `b` positions of a block: the pair
    (block, position) runs over the indices once each, as `b * block + position`. -/
theorem sum_blocks (n b : ℕ) (g : Fin (n * b) → M) :
    ∑ s : Fin (n * b), g s = ∑ kk : Fin n, ∑ s : Fin b, g ⟨b * kk.val + s.val, blk_lt kk s⟩ := by
  rw [← Equiv.sum_comp finProdFinEquiv g, Fintype.sum_prod_type]
  refine Finset.sum_congr rfl fun kk _ => Finset.sum_congr rfl fun s _ => ?_
  refine congrArg g (Fin.ext ?_)
  show s.val + b * kk.val = b * kk.val + s.val
  exact Nat.add_comm _ _

/-- 4096 indices are 8 blocks of 512. -/
theorem sum_4096 (g : Fin 4096 → M) :
    ∑ s : Fin 4096, g s
      = ∑ kk : Fin 8, ∑ s : Fin 512, g ⟨512 * kk.val + s.val, by have := kk.isLt; have := s.isLt; omega⟩ :=
  sum_blocks 8 512 g

/-- Eight terms added one after the other onto zero are their sum. -/
theorem nest8 (c : Fin 8 → M) :
    ((((((((0 + c 0) + c 1) + c 2) + c 3) + c 4) + c 5) + c 6) + c 7) = ∑ kk : Fin 8, c kk := by
  rw [Fin.sum_univ_eight, zero_add]

/-- The first `n` terms of a sequence added one after the other onto zero. -/
def accUpTo (c : ℕ → M) : ℕ → M
  | 0 => 0
  | k + 1 => accUpTo c k + c k

/-- Adding the first `n` terms one after the other gives their sum. -/
theorem accUpTo_eq_sum (c : ℕ → M) (n : ℕ) : accUpTo c n = ∑ kk : Fin n, c kk.val := by
  induction n with
  | zero => rfl
  | succ k ih =>
    rw [Fin.sum_univ_castSucc]
    show accUpTo c k + c k = ∑ kk : Fin k, c kk.val + c k
    rw [ih]

end SumSplit
-- ==== Proof.RefValue.lean ====
/-
  The value the reference program returns, read as mathematics.

  The reference computes, for predictions p and integer labels t over 262144 × 80 entries: z = 1/(1 + e^(-p)); each
  entry's bin ⌊10·|z − t|⌋ clipped to 0 … 9; the ten bin counts (a sum of ones scattered to the bins); the number n of
  nonempty bins; each bin's weight (N / max count 1 if the count is positive, else 0); each entry's weight, its bin's
  weight divided by max n 1; each entry's cross-entropy term softplus z − t·z; and the sum of weight times term, divided
  by N. This file names each of those stages as a whole-array function, shows that the program's result is their
  composition, reads each stage at an index, and concludes that the result is the specification's entry-by-entry loss.
-/
import proofs.«153797_j67929202754192_2_alg».proof.Proof.RefRunPatched
import proofs.«153797_j67929202754192_2_alg».proof.Proof.GhmSpec
import proofs.«153797_j67929202754192_2_alg».proof.Proof.LibSegmentOps
import proofs.«153797_j67929202754192_2_alg».proof.Proof.LibSumSplit
import Idealize.ShloMosaic.Lib.IdealHost
import Idealize.ShloMosaic.Lib.Pipeline.Value

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## The stages, as whole-array functions of the two argument arrays -/

section Stages
variable (P : FVec Ideal S262144x80 .f32) (T : IVec S262144x80 32)

/-- z = 1 / (1 + e^(-p)), entry by entry. -/
def zArr : FVec Ideal S262144x80 .f32 :=
  Host.divf (broadcastInDim S262144x80 ![] bcast_S_S262144x80 (constant S_ .f32 0x3F800000#32))
    (addf (broadcastInDim S262144x80 ![] bcast_S_S262144x80 (constant S_ .f32 0x3F800000#32)) (Host.exp (Host.negf P)))

/-- The labels as numbers. -/
def tArr : FVec Ideal S262144x80 .f32 := sitofp .f32 T

/-- Each entry's bin: ten times |z − t|, truncated, clipped to 0 … 9. -/
def binArr : IVec S262144x80 32 :=
  minsi (broadcastInDim S262144x80 ![] bcast_S_S262144x80 (id (constantI S_ 32 9#32)))
    (maxsi (broadcastInDim S262144x80 ![] bcast_S_S262144x80 (id (constantI S_ 32 0#32)))
      (fptosi 32 (mulf (Host.absf (subf (zArr P) (tArr T)))
        (broadcastInDim S262144x80 ![] bcast_S_S262144x80 (constant S_ .f32 0x41200000#32)))))

/-- The bins laid out as one column of 20971520 index words, in row-major order. -/
def flatIdx : IVec S20971520x1 32 :=
  broadcastInDim S20971520x1 ![0] bcast_S20971520_S20971520x1_0 (shapeCast _ (binArr P T) shapeCasts_S262144x80_S20971520)

/-- The ten bin counts: ones added into the bins, from zero. -/
def countsArr : FVec Ideal S10 .f32 :=
  Host.scatterAdd scatter_S10_S20971520x1_S20971520_n_0_0_1 (broadcastInDim S10 ![] bcast_S_S10 (constant S_ .f32 0x00000000#32))
    (flatIdx P T) (broadcastInDim S20971520 ![] bcast_S_S20971520 (constant S_ .f32 0x3F800000#32))

/-- The number of nonempty bins, as a 32-bit word. -/
def nArr : IVec S_ 32 :=
  Host.reduce IntOp.addi
    (extui 32 (cmpf (F := Ideal) .ogt (countsArr P T) (broadcastInDim S10 ![] bcast_S_S10 (constant S_ .f32 0x00000000#32))) natLt_1_32)
    (constantI S_ 32 0#32) reducesTo_S10_S_d0 h_S_

/-- Each bin's weight before the division by the number of nonempty bins. -/
def wArr : FVec Ideal S10 .f32 :=
  select (cmpf (F := Ideal) .ogt (countsArr P T) (broadcastInDim S10 ![] bcast_S_S10 (constant S_ .f32 0x00000000#32)))
    (Host.divf (broadcastInDim S10 ![] bcast_S_S10 (constant S_ .f32 0x4BA00000#32))
      (maximumf (countsArr P T) (broadcastInDim S10 ![] bcast_S_S10 (constant S_ .f32 0x3F800000#32))))
    (broadcastInDim S10 ![] bcast_S_S10 (id (constant S_ .f32 0x00000000#32)))

/-- The index words the weights are read at: the bins, a negative one moved up by ten (none is). -/
def gIdx : IVec S262144x80x1 32 :=
  broadcastInDim S262144x80x1 ![0, 1] bcast_S262144x80_S262144x80x1_0_1
    (select (cmpi .slt (binArr P T) (broadcastInDim S262144x80 ![] bcast_S_S262144x80 (constantI S_ 32 0#32)))
      (addi (binArr P T) (broadcastInDim S262144x80 ![] bcast_S_S262144x80 (constantI S_ 32 10#32)))
      (binArr P T))

/-- Each entry's bin weight. -/
def gwArr : FVec Ideal S262144x80 .f32 :=
  Host.gather gather_S10_S262144x80x1_S262144x80_n_0_n_n_0_2_1 (wArr P T) (gIdx P T)

/-- The divisor max n 1. -/
def normArr : FVec Ideal S_ .f32 := maximumf (sitofp .f32 (nArr P T)) (constant S_ .f32 0x3F800000#32)

/-- Each entry's weight. -/
def weightArr : FVec Ideal S262144x80 .f32 :=
  Host.divf (gwArr P T) (broadcastInDim S262144x80 ![] bcast_S_S262144x80 (normArr P T))

/-- z − 0, as the softplus spells it. -/
def zSub : FVec Ideal S262144x80 .f32 :=
  subf (zArr P) (broadcastInDim S262144x80 ![] bcast_S_S262144x80 (constant S_ .f32 0x00000000#32))

/-- Each entry's cross-entropy term softplus z − t·z. -/
def bceArr : FVec Ideal S262144x80 .f32 :=
  subf
    (select (cmpf .une (zSub P) (zSub P))
      (addf (zArr P) (broadcastInDim S262144x80 ![] bcast_S_S262144x80 (constant S_ .f32 0x00000000#32)))
      (addf (maximumf (zArr P) (broadcastInDim S262144x80 ![] bcast_S_S262144x80 (constant S_ .f32 0x00000000#32)))
        (Host.log1p (Host.exp (Host.negf (Host.absf (zSub P)))))))
    (mulf (tArr T) (zArr P))

/-- The loss: the sum over all entries of weight times term, from zero, divided by N. -/
def lossArr : FVec Ideal S_ .f32 :=
  Host.divf (Host.reduceAdd (mulf (weightArr P T) (bceArr P T)) (constant S_ .f32 0x00000000#32) reducesTo_S262144x80_S_d0_1 h_S_)
    (constant S_ .f32 0x4BA00000#32)

end Stages

/-! ## The program's result is the composition of the stages -/

set_option maxRecDepth 8192 in
theorem res_eq_lossArr (m : (ℓ : Loc nD τ sig) → Buf (Elt Ideal) ℓ) (c : Dev nD) :
    Cert.ReferenceIdeal.RunP.res_main_v45 (F := Ideal) m c
      = lossArr (m ((c.tc : Thread nD τ).loc main_arg0)) (m ((c.tc : Thread nD τ).loc main_arg1)) := by
  unfold Cert.ReferenceIdeal.RunP.res_main_v45
  rfl

/-! ## Two facts about 32-bit words below ten -/

/-- A word below ten, read as a signed integer, is its value. -/
theorem toInt_of_lt_ten (v : BitVec 32) (hv : v.toNat < 10) : v.toInt = (v.toNat : Int) := by
  rw [BitVec.toInt_eq_toNat_cond, if_pos (by omega)]

/-- A word below ten reads (signed) as `b` exactly when it is the word of `b`. -/
theorem toInt_eq_iff (v : BitVec 32) (hv : v.toNat < 10) (b : Fin 10) :
    v.toInt = (b.val : Int) ↔ v = BitVec.ofNat 32 b.val := by
  rw [toInt_of_lt_ten v hv]
  have hb := b.isLt
  constructor
  · intro h
    apply BitVec.eq_of_toNat_eq
    rw [BitVec.toNat_ofNat, Nat.mod_eq_of_lt (by omega)]
    exact_mod_cast h
  · intro h
    rw [h, BitVec.toNat_ofNat, Nat.mod_eq_of_lt (by omega)]

/-! ## Each stage read at an index -/

section Apply
variable (P : FVec Ideal S262144x80 .f32) (T : IVec S262144x80 32)

/-- z is the logistic of the prediction: the constant 1's pattern is the number one. -/
theorem zArr_apply (i : S262144x80.Idx) : zArr P i = Ghm.zOf (P i) := by
  show Ideal.div (Ideal.ofBits .f32 0x3F800000#32) (Ideal.ofBits .f32 0x3F800000#32 + Ideal.exp (-(P i))) = Ideal.logistic (P i)
  rw [Ideal.ofBits_one_f32]
  rfl

theorem tArr_apply (i : S262144x80.Idx) : tArr T i = Ghm.tOf (T i) := rfl

theorem binArr_apply (i : S262144x80.Idx) : binArr P T i = Ghm.binOf (P i) (T i) := by
  show IntOp.minsi 9#32 (IntOp.maxsi 0#32 (Ideal.fptosi 32 (max (zArr P i - tArr T i) (-(zArr P i - tArr T i)) * Ghm.c10))) = _
  rw [zArr_apply, tArr_apply]
  rfl

/-- Row-major flattening: position 80·r + c of the column of index words is entry (r, c)'s bin. -/
theorem flatIdx_apply (r : Fin 262144) (c : Fin 80) :
    flatIdx P T (ix2 (⟨80 * r.val + c.val, SumSplit.blk_lt r c⟩ : Fin 20971520) (0 : Fin 1)) = Ghm.binAt P T r c := by
  unfold flatIdx
  rw [broadcastInDim_apply _ _ _ _ (ix1 (⟨80 * r.val + c.val, SumSplit.blk_lt r c⟩ : Fin 20971520)) (fun a => by
    obtain rfl : a = 0 := Subsingleton.elim _ _
    rfl)]
  rw [shapeCast_apply _ _ _ (ix2 r c) (by
    rw [Shape.rowMajor_val_two, Shape.rowMajor_val_one]
    show r.val * 80 + c.val = 80 * r.val + c.val
    omega)]
  exact binArr_apply P T _

/-- The count of bin b: the zero it starts from plus a one for every entry whose bin is b. -/
theorem countsArr_apply (b : Fin 10) : countsArr P T (ix1 b) = Ghm.count P T b := by
  show Host.scatterAdd (F := Ideal) (φ := .f32) (SegmentOps.addDims1 10 20971520 scatter_S10_S20971520x1_S20971520_n_0_0_1_wf)
    (broadcastInDim S10 ![] bcast_S_S10 (constant S_ .f32 0x00000000#32)) (flatIdx P T)
    (broadcastInDim S20971520 ![] bcast_S_S20971520 (constant S_ .f32 0x3F800000#32)) (ix1 b) = _
  rw [SegmentOps.scatterAdd1_apply, Finset.sum_filter]
  show Ideal.ofBits .f32 0x00000000#32 + ∑ e : Fin 20971520,
    (if (flatIdx P T (ix2 e 0)).toInt = (b.val : Int) then Ideal.ofBits .f32 0x3F800000#32 else 0) = _
  rw [Ideal.ofBits_zero_f32, Ideal.ofBits_one_f32, zero_add]
  refine (SumSplit.sum_blocks 262144 80
    (fun e : Fin (262144 * 80) => if (flatIdx P T (ix2 e 0)).toInt = (b.val : Int) then (1 : EReal) else 0)).trans ?_
  unfold Ghm.count
  refine Finset.sum_congr rfl fun r _ => Finset.sum_congr rfl fun c _ => ?_
  show (if (flatIdx P T (ix2 (⟨80 * r.val + c.val, SumSplit.blk_lt r c⟩ : Fin 20971520) 0)).toInt = (b.val : Int) then (1 : EReal) else 0) = _
  rw [flatIdx_apply]
  exact if_congr (toInt_eq_iff _ (Ghm.binOf_lt _ _) b) rfl rfl

/-- The counts vector is the specification's counts. -/
theorem countsArr_eq : countsArr P T = fun j : Ghm.Bins.Idx => Ghm.count P T (j 0) := by
  funext j
  exact (congrArg (countsArr P T) (eq_ix1 j)).trans (countsArr_apply P T (j 0))

/-- The number of nonempty bins is the specification's word, formed by the same operations from the same counts. -/
theorem nArr_apply : nArr P T ix0 = Ghm.nWord (Ghm.count P T) bcast_S_S10 reducesTo_S10_S_d0 h_S_ natLt_1_32 := by
  unfold nArr Ghm.nWord
  rw [countsArr_eq]

theorem wArr_apply (b : Fin 10) : wArr P T (ix1 b) = Ghm.binWeight (Ghm.count P T b) := by
  unfold wArr
  rw [select_apply, cmpf_apply, hostDivf_apply, maximumf_apply, countsArr_apply]
  rfl

/-- A bin is never negative, so the index word read for entry (r, c) is its bin. -/
theorem gIdx_apply (r : Fin 262144) (c : Fin 80) : gIdx P T (takeIdx (ix2 r c)) = Ghm.binAt P T r c := by
  unfold gIdx
  rw [broadcastInDim_apply _ _ _ _ (ix2 r c) (fun a => by
    match a with
    | ⟨0, _⟩ => rfl
    | ⟨1, _⟩ => rfl)]
  show Scalar.select (IntOp.cmpi .slt (binArr P T (ix2 r c)) 0#32) (IntOp.addi (binArr P T (ix2 r c)) 10#32) (binArr P T (ix2 r c)) = _
  rw [binArr_apply]
  have hlt := Ghm.binOf_lt (P (ix2 r c)) (T (ix2 r c))
  have h0 : IntOp.cmpi .slt (Ghm.binOf (P (ix2 r c)) (T (ix2 r c))) 0#32 = 0#1 := by
    show BitVec.ofBool ((Ghm.binOf (P (ix2 r c)) (T (ix2 r c))).slt 0#32) = 0#1
    have : (Ghm.binOf (P (ix2 r c)) (T (ix2 r c))).slt 0#32 = false := by
      rw [BitVec.slt, toInt_of_lt_ten _ hlt]
      simp
    rw [this]
    rfl
  rw [h0, select_zero]
  rfl

/-- Entry (r, c)'s gathered weight is its bin's weight. -/
theorem gwArr_apply (r : Fin 262144) (c : Fin 80) :
    gwArr P T (ix2 r c) = Ghm.binWeight (Ghm.count P T (Ghm.binFin P T r c)) := by
  show Host.gather (takeDims 10 262144 80 gather_S10_S262144x80x1_S262144x80_n_0_n_n_0_2_1_wf) (wArr P T) (gIdx P T) (ix2 r c) = _
  rw [gather_take_apply (by decide : 0 < 10), ← wArr_apply]
  have hlt : (Ghm.binAt P T r c).toNat < 10 := Ghm.binOf_lt _ _
  refine congrArg (fun k : Fin 10 => wArr P T (ix1 k)) (Fin.ext ?_)
  show min (gIdx P T (takeIdx (ix2 r c))).toInt.toNat (10 - 1) = (Ghm.binAt P T r c).toNat
  rw [gIdx_apply, toInt_of_lt_ten _ hlt]
  omega

theorem normArr_apply : normArr P T ix0 = Ghm.normOf (nArr P T ix0) := rfl

theorem weightArr_apply (r : Fin 262144) (c : Fin 80) :
    weightArr P T (ix2 r c)
      = Ghm.weight (Ghm.count P T) (Ghm.nWord (Ghm.count P T) bcast_S_S10 reducesTo_S10_S_d0 h_S_ natLt_1_32) (Ghm.binFin P T r c) := by
  show Ideal.div (gwArr P T (ix2 r c)) (broadcastInDim S262144x80 ![] bcast_S_S262144x80 (normArr P T) (ix2 r c)) = _
  rw [broadcastInDim_scalar_apply, gwArr_apply, normArr_apply, nArr_apply]
  rfl

/-- Nothing differs from itself, so the softplus takes its main branch. -/
theorem bceArr_apply (i : S262144x80.Idx) : bceArr P T i = Ghm.bceOf (P i) (T i) := by
  show Scalar.select (Ideal.cmp .une (zSub P i) (zSub P i)) (zArr P i + Ghm.c0)
    (max (zArr P i) Ghm.c0 + Ideal.log1p (Ideal.exp (-(max (zSub P i) (-(zSub P i)))))) - tArr T i * zArr P i = _
  have h0 : Ideal.cmp .une (zSub P i) (zSub P i) = 0#1 := by simp [Ideal.cmp]
  rw [h0, select_zero]
  show (max (zArr P i) Ghm.c0 + Ideal.log1p (Ideal.exp (-(max (zArr P i - Ghm.c0) (-(zArr P i - Ghm.c0)))))) - tArr T i * zArr P i = _
  rw [zArr_apply, tArr_apply]
  rfl

/-- The loss: zero plus the sum over every entry of weight times term, divided by N. -/
theorem lossArr_apply (j : S_.Idx) :
    lossArr P T j
      = Ghm.lossByEntries (Ghm.count P T) (Ghm.nWord (Ghm.count P T) bcast_S_S10 reducesTo_S10_S_d0 h_S_ natLt_1_32)
          (Ghm.binFin P T) (Ghm.bceAt P T) := by
  show Ideal.div (Host.reduceAdd (mulf (weightArr P T) (bceArr P T)) (constant S_ .f32 0x00000000#32)
    reducesTo_S262144x80_S_d0_1 h_S_ j) Ghm.cN = _
  rw [hostReduceAdd_apply, Ideal.hostReduceAdd_total _ (fun b => b.elim0), sum_idx2]
  unfold Ghm.lossByEntries
  refine congrArg (fun x => Ideal.div (Ghm.c0 + x) Ghm.cN) ?_
  refine Finset.sum_congr rfl fun r _ => Finset.sum_congr rfl fun c _ => ?_
  rw [mulf_apply, weightArr_apply, bceArr_apply]
  rfl

end Apply

/-! ## The result -/

/-- The reference's result is the specification's entry-by-entry loss of the two argument arrays. -/
theorem result_eq (m : (ℓ : Loc nD τ sig) → Buf (Elt Ideal) ℓ) (c : Dev nD) :
    Cert.ReferenceIdeal.RunP.res_out0 (F := Ideal) m c
      = fun _ => Ghm.lossByEntries
          (Ghm.count (m ((c.tc : Thread nD τ).loc main_arg0)) (m ((c.tc : Thread nD τ).loc main_arg1)))
          (Ghm.nWord (Ghm.count (m ((c.tc : Thread nD τ).loc main_arg0)) (m ((c.tc : Thread nD τ).loc main_arg1)))
            bcast_S_S10 reducesTo_S10_S_d0 h_S_ natLt_1_32)
          (Ghm.binFin (m ((c.tc : Thread nD τ).loc main_arg0)) (m ((c.tc : Thread nD τ).loc main_arg1)))
          (Ghm.bceAt (m ((c.tc : Thread nD τ).loc main_arg0)) (m ((c.tc : Thread nD τ).loc main_arg1))) := by
  show Cert.ReferenceIdeal.RunP.res_main_v45 (F := Ideal) m c = _
  rw [res_eq_lossArr]
  funext j
  exact lossArr_apply _ _ j

end Cert.ReferenceIdeal.RefValue

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.LibColumnSum.lean ====
/-
  A sum over the FIRST axis of a rank-2 vector read at an index, at the ideal values: at column `b` it is the sum over the
  row coordinate (`colSum2_apply`) — the companion of a row sum (over the second axis). With a unit second extent it is the
  sum of a column vector [n, 1] into [1], the second step of a `keepdims` reduction of a block to one number.
-/
import Idealize.ShloMosaic.PureOps.Ideal.Laws
import Idealize.ShloMosaic.Lib.ValueIdx

noncomputable section

open scoped BigOperators

namespace Idealize.ShloMosaic.ColumnSum

open Idealize.ShloMosaic Idealize.ShloMosaic.ValueIdx

/-- A sum over the first axis of a rank-2 vector, at column `b`: the sum over the row coordinate. -/
theorem colSum2_apply {n0 n1 : Nat} {φ : FTy} (v : FVec Ideal ⟨2, ![n0, n1]⟩ φ) (acc : BitVec φ.bits)
    (h : (⟨2, ![n0, n1]⟩ : Shape).Reduces [0] ⟨1, ![n1]⟩) (hφ : FKind.Formats φ) (hacc : acc = FKind.add.neutral φ hφ)
    (b : Fin n1) :
    multiReduction .add [0] ⟨1, ![n1]⟩ v acc h hφ hacc (ix1 b) = ∑ a : Fin n0, v (ix2 a b) :=
  (Ideal.multiReduction_add_single v acc h hφ hacc (ix1 b)).trans
    (Finset.sum_congr rfl fun k _ => congrArg v (funext fun d => Fin.ext (by
      match d with | ⟨0, _⟩ => rfl | ⟨1, _⟩ => rfl)))

end Idealize.ShloMosaic.ColumnSum

end
-- ==== Proof.TileOps.lean ====
/-
  One grid point of the kernel, in a uniform vocabulary.

  A tile is 8192 rows of 80 entries. From the tile's predictions and labels the body forms, entry by entry, the bin word and
  the cross-entropy term; then, bin by bin (ten bins), the number of entries of the tile in the bin and the sum of their terms,
  each a sum over the 80 entries of a row followed by a sum over the 8192 rows; the ten numbers are laid along a row of 128
  lanes (bin b in lane b, the other lanes zero) by ten masked additions, and the row is added to row 0 (the counts) or row 1
  (the sums) of the 8 × 128 output block.
-/
import proofs.«153797_j67929202754192_2_alg».proof.Proof.Gen.KernelIdeal.Skeleton
import proofs.«153797_j67929202754192_2_alg».proof.Proof.LibKeepdims
import proofs.«153797_j67929202754192_2_alg».proof.Proof.LibColumnSum
import proofs.«153797_j67929202754192_2_alg».proof.Proof.GhmSpec
import Idealize.ShloMosaic.Lib.ValueLayout
import Idealize.ShloMosaic.Lib.Pipeline.Value

set_option maxRecDepth 16384

noncomputable section

namespace Cert.KernelIdeal.Tile

open Idealize.ShloMosaic Idealize.ShloMosaic.ValueIdx Cert.KernelIdeal Cert.KernelIdeal.Gen

variable {F : FTy → Type} [FloatOps F]

/-! ## The vocabulary, at any float instance -/

/-- The lane coordinate along a row of 128 lanes. -/
abbrev lanes : IVec S1x128 32 := iota .tc S1x128 32 [1] iota_S1x128_d1_w32

/-- Which entries of the tile are in bin `b`; which lane of a row is lane `b`. -/
def binMask (v12 : IVec S8192x80 32) (b : BitVec 32) : IVec S8192x80 1 := cmpi .eq v12 (broadcast S8192x80 b)
def laneMask (v32 : IVec S1x128 32) (b : BitVec 32) : IVec S1x128 1 := cmpi .eq v32 (broadcast S1x128 b)

/-- The sum of all entries of a tile, as a 1 × 1 vector: along each row, then down the rows. -/
def tileSum (x : FVec F S8192x80 .f32) : FVec F S1x1 .f32 :=
  shapeCast S1x1 (multiReduction .add [0] S1 (shapeCast S8192x1 (multiReduction .add [1] S8192 x 0x00000000#32 reduces_S8192x80_S8192 (.inl rfl) rfl) shapeCasts_S8192_S8192x1) 0x00000000#32 reduces_S8192x1_S1 (.inl rfl) rfl) shapeCasts_S1_S1x1

/-- The indicator of bin `b` as floats; the terms of bin `b`, zero elsewhere. -/
def ones (v12 : IVec S8192x80 32) (b : BitVec 32) : FVec F S8192x80 .f32 := sitofp .f32 (extui 32 (binMask v12 b) natLt_1_32)
def picked (v12 : IVec S8192x80 32) (v28 : FVec F S8192x80 .f32) (b : BitVec 32) : FVec F S8192x80 .f32 :=
  select (binMask v12 b) v28 (broadcast S8192x80 (Scalar.ofBits .f32 0x00000000#32))

/-- One masked addition into a row of lanes: the number `x` goes to the lanes of the mask, `z` to the others. -/
def laneAdd (acc : FVec F S1x128 .f32) (lm : IVec S1x128 1) (x : FVec F S1x1 .f32) (z : F .f32) : FVec F S1x128 .f32 :=
  addf acc (select lm (broadcastTo S1x128 (shapeCast S1x1 x shapeCasts_S1x1_S1x1) broadcasts_S1x1_S1x128) (broadcast S1x128 z))

/-- The row of counts after the bins of the list (last bin first), and the row of sums. -/
def cntChain (v12 : IVec S8192x80 32) (v32 : IVec S1x128 32) : List (BitVec 32) → FVec F S1x128 .f32
  | [] => broadcast S1x128 (Scalar.ofBits .f32 0x00000000#32)
  | b :: bs => laneAdd (cntChain v12 v32 bs) (laneMask v32 b) (tileSum (ones v12 b)) (Scalar.ofBits .f32 0x00000000#32)
def sumChain (v12 : IVec S8192x80 32) (v28 : FVec F S8192x80 .f32) (v32 : IVec S1x128 32) : List (BitVec 32) → FVec F S1x128 .f32
  | [] => broadcast S1x128 (Scalar.ofBits .f32 0x00000000#32)
  | b :: bs => laneAdd (sumChain v12 v28 v32 bs) (laneMask v32 b) (tileSum (picked v12 v28 b)) (Scalar.ofBits .f32 0x00000000#32)

/-- The ten bins, last first. -/
abbrev bins : List (BitVec 32) := [9#32, 8#32, 7#32, 6#32, 5#32, 4#32, 3#32, 2#32, 1#32, 0#32]

/-- The tile's bin words and terms, and its two rows. -/
abbrev binsOf (x0 : Vec F S8192x80 .f32) (x1 : Vec F S8192x80 .i32) : IVec S8192x80 32 := k0_pay4 x0 x1
abbrev termsOf (x0 : Vec F S8192x80 .f32) (x1 : Vec F S8192x80 .i32) : FVec F S8192x80 .f32 := k0_pay5 x0 x1
def cntRow (x0 : Vec F S8192x80 .f32) (x1 : Vec F S8192x80 .i32) : FVec F S1x128 .f32 := cntChain (binsOf x0 x1) lanes bins
def sumRow (x0 : Vec F S8192x80 .f32) (x1 : Vec F S8192x80 .i32) : FVec F S1x128 .f32 := sumChain (binsOf x0 x1) (termsOf x0 x1) lanes bins

/-- A row of the output block with a row of lanes added to it. -/
def rowPlus (old : Vec F S1x1x128 .f32) (r : FVec F S1x128 .f32) : FVec F S1x1x128 .f32 :=
  shapeCast S1x1x128 (addf (shapeCast S1x128 old shapeCasts_S1x1x128_S1x128) r) shapeCasts_S1x128_S1x1x128

/-! ## The printed payloads are these -/

/-- The value stored to row 0 of the block: the old row 0 plus the row of counts. -/
theorem store0_eq (x0 : Vec F S8192x80 .f32) (x1 : Vec F S8192x80 .i32) (old : Vec F S1x1x128 .f32) :
    k0_pay47 (k0_pay4 x0 x1) lanes
      (k0_pay44 (k0_pay4 x0 x1) lanes
        (k0_pay35 (k0_pay4 x0 x1) lanes
          (k0_pay27 (k0_pay4 x0 x1) lanes
            (k0_pay19 (k0_pay4 x0 x1) lanes (k0_pay15 (k0_pay4 x0 x1) lanes k0_pay7 (k0_pay10 x0 x1)))
            (k0_pay22 (k0_pay4 x0 x1)) (k0_pay24 lanes) (FloatOps.ofBits .f32 0#32))
          (k0_pay30 (k0_pay4 x0 x1)))
        (k0_pay38 (k0_pay4 x0 x1))) old
      = rowPlus old (cntRow x0 x1) := rfl

/-- The value stored to row 1 of the block: the old row 1 plus the row of sums. -/
theorem store1_eq (x0 : Vec F S8192x80 .f32) (x1 : Vec F S8192x80 .i32) (old : Vec F S1x1x128 .f32) :
    k0_pay1 (k0_pay48 (k0_pay4 x0 x1) (k0_pay5 x0 x1) lanes
      (k0_pay40 (k0_pay5 x0 x1) lanes
        (k0_pay36 (k0_pay4 x0 x1) (k0_pay5 x0 x1) lanes
          (k0_pay28 (k0_pay4 x0 x1) (k0_pay5 x0 x1) lanes
            (k0_pay20 (k0_pay4 x0 x1) (k0_pay5 x0 x1) lanes (k0_pay12 (k0_pay5 x0 x1) lanes k0_pay8 (k0_pay9 x0 x1)) (k0_pay16 (k0_pay4 x0 x1) (k0_pay5 x0 x1) lanes))
            (k0_pay23 (k0_pay4 x0 x1) (k0_pay5 x0 x1)) (k0_pay24 lanes))
          (k0_pay31 (k0_pay4 x0 x1) (k0_pay5 x0 x1)))
        (k0_pay37 (k0_pay4 x0 x1)))
      (k0_pay42 (k0_pay4 x0 x1) (k0_pay5 x0 x1)) (k0_pay43 lanes) old)
      = rowPlus old (sumRow x0 x1) := rfl

/-- The block the first point of a core stores before anything else: zeros. -/
theorem zeros_eq : (k0_pay6 : FVec F S1x8x128 .f32) = shapeCast S1x8x128 (broadcast S8x128 (Scalar.ofBits .f32 0x00000000#32)) shapeCasts_S8x128_S1x8x128 := rfl

/-! ## Read at an index, on the extended reals -/

section Ideal

/-- The lane coordinate at lane `l` is `l`. -/
theorem lanes_apply (l : Fin 128) : (lanes : IVec S1x128 32) (ix2 0 l) = BitVec.ofNat 32 l.val := by
  show BitVec.ofNat 32 (0 * 128 + l.val) = _
  rw [Nat.zero_mul, Nat.zero_add]

/-- The sum of all entries of a tile is the double sum, rows then entries of a row. -/
theorem tileSum_apply (x : FVec Ideal S8192x80 .f32) :
    tileSum x (ix2 0 0) = ∑ r : Fin 8192, ∑ c : Fin 80, x (ix2 r c) := by
  unfold tileSum
  refine (shapeCast_a_1a_apply _ _ 0 0).trans ?_
  refine (ColumnSum.colSum2_apply _ _ _ _ _ 0).trans ?_
  refine Finset.sum_congr rfl fun r _ => ?_
  refine (Keepdims.cast_col_apply _ _ r 0).trans ?_
  exact Keepdims.rowSum2_apply _ _ _ _ _ r

/-- One masked addition, at lane `l`. -/
theorem laneAdd_apply (acc : FVec Ideal S1x128 .f32) (lm : IVec S1x128 1) (x : FVec Ideal S1x1 .f32) (z : Ideal .f32) (l : Fin 128) :
    laneAdd acc lm x z (ix2 0 l) = acc (ix2 0 l) + Scalar.select (lm (ix2 0 l)) (x (ix2 0 0)) z := by
  unfold laneAdd
  rw [addf_apply, select_apply, Keepdims.bcast_col_apply, shapeCast_self]
  rfl

end Ideal

section Ideal2

/-- The indicator of bin `b` at an entry. -/
theorem ones_apply (v12 : IVec S8192x80 32) (b : BitVec 32) (i : S8192x80.Idx) :
    (ones (F := Ideal) v12 b) i = if v12 i = b then (1 : EReal) else 0 := by
  show (((((IntOp.cmpi .eq (v12 i) b).setWidth 32).toInt : ℝ)) : EReal) = _
  by_cases h : v12 i = b
  · rw [if_pos h, h]; simp [IntOp.cmpi]
  · have hne : (v12 i == b) = false := by simpa using h
    rw [if_neg h]; simp [IntOp.cmpi, hne]

/-- The terms of bin `b` at an entry. -/
theorem picked_apply (v12 : IVec S8192x80 32) (v28 : FVec Ideal S8192x80 .f32) (b : BitVec 32) (i : S8192x80.Idx) :
    picked v12 v28 b i = if v12 i = b then v28 i else 0 := by
  show Scalar.select (IntOp.cmpi .eq (v12 i) b) (v28 i) (Ideal.ofBits .f32 0x00000000#32) = _
  rw [Ideal.ofBits_zero_f32]
  by_cases h : v12 i = b
  · rw [if_pos h, h]; simp [Scalar.select, IntOp.cmpi]
  · have hne : (v12 i == b) = false := by simpa using h
    rw [if_neg h]; simp [Scalar.select, IntOp.cmpi, hne]

/-- Numbers `f b` laid out by "take `f b` where the word is `b`, else zero" over distinct words `b` add up to `f w` when `w` is among them. -/
theorem sum_select (w : BitVec 32) (f : BitVec 32 → EReal) : ∀ bs : List (BitVec 32), bs.Nodup →
    (bs.map fun b => Scalar.select (IntOp.cmpi .eq w b) (f b) (0 : EReal)).sum = if w ∈ bs then f w else 0
  | [], _ => by simp
  | b :: bs, h => by
    have hb : b ∉ bs := (List.nodup_cons.mp h).1
    rw [List.map_cons, List.sum_cons, sum_select w f bs (List.nodup_cons.mp h).2]
    by_cases e : w = b
    · subst e; simp [Scalar.select, IntOp.cmpi, hb]
    · have hne : (w == b) = false := by simpa using e
      have hm : (w ∈ b :: bs) ↔ w ∈ bs := by simp [e]
      simp [Scalar.select, IntOp.cmpi, hne, hm]

/-- The row of counts at lane `l`, after the bins of a list. -/
theorem cntChain_apply (v12 : IVec S8192x80 32) (v32 : IVec S1x128 32) (l : Fin 128) : ∀ bs : List (BitVec 32),
    cntChain (F := Ideal) v12 v32 bs (ix2 0 l)
      = (bs.map fun b => Scalar.select (IntOp.cmpi .eq (v32 (ix2 0 l)) b) (tileSum (ones (F := Ideal) v12 b) (ix2 0 0)) (0 : EReal)).sum
  | [] => by show Ideal.ofBits .f32 0x00000000#32 = _; rw [Ideal.ofBits_zero_f32]; rfl
  | b :: bs => by
    show laneAdd _ _ _ _ (ix2 0 l) = _
    rw [laneAdd_apply, cntChain_apply v12 v32 l bs, List.map_cons, List.sum_cons, add_comm]
    show Scalar.select _ _ (Ideal.ofBits .f32 0x00000000#32) + _ = _
    rw [Ideal.ofBits_zero_f32]; rfl

/-- The row of sums at lane `l`, after the bins of a list. -/
theorem sumChain_apply (v12 : IVec S8192x80 32) (v28 : FVec Ideal S8192x80 .f32) (v32 : IVec S1x128 32) (l : Fin 128) : ∀ bs : List (BitVec 32),
    sumChain v12 v28 v32 bs (ix2 0 l)
      = (bs.map fun b => Scalar.select (IntOp.cmpi .eq (v32 (ix2 0 l)) b) (tileSum (picked v12 v28 b) (ix2 0 0)) (0 : EReal)).sum
  | [] => by show Ideal.ofBits .f32 0x00000000#32 = _; rw [Ideal.ofBits_zero_f32]; rfl
  | b :: bs => by
    show laneAdd _ _ _ _ (ix2 0 l) = _
    rw [laneAdd_apply, sumChain_apply v12 v28 v32 l bs, List.map_cons, List.sum_cons, add_comm]
    show Scalar.select _ _ (Ideal.ofBits .f32 0x00000000#32) + _ = _
    rw [Ideal.ofBits_zero_f32]; rfl

theorem bins_nodup : bins.Nodup := by decide
theorem mem_bins (k : Fin 10) : BitVec.ofNat 32 k.val ∈ bins := by fin_cases k <;> decide

end Ideal2

section Ideal3

/-- An entry's bin word is the specification's. -/
theorem binsOf_apply (x0 : Vec Ideal S8192x80 .f32) (x1 : Vec Ideal S8192x80 .i32) (i : S8192x80.Idx) :
    binsOf x0 x1 i = Ghm.binOf (x0 i) (x1 i) := rfl

/-- An entry's term, as the body spells it (a guard on `x ≠ x`, never taken on the extended reals, and `0 − |z|` for `−|z|`), is the specification's. -/
theorem termsOf_apply (x0 : Vec Ideal S8192x80 .f32) (x1 : Vec Ideal S8192x80 .i32) (i : S8192x80.Idx) :
    termsOf x0 x1 i = Ghm.bceOf (x0 i) (x1 i) := by
  show Scalar.select (Ideal.cmp .one (Ghm.zOf (x0 i) - Ghm.c0) (Ghm.zOf (x0 i) - Ghm.c0)) (Ghm.zOf (x0 i) + Ghm.c0)
      (max (Ghm.zOf (x0 i)) Ghm.c0 + Ideal.log1p (Ideal.exp (Ghm.c0 - max (Ghm.zOf (x0 i) - Ghm.c0) (-(Ghm.zOf (x0 i) - Ghm.c0)))))
      - Ghm.tOf (x1 i) * Ghm.zOf (x0 i) = _
  have hc : ∀ a : EReal, Ideal.cmp .one a a = 0#1 := fun a => by simp [Ideal.cmp]
  have hz : ∀ y : EReal, Ghm.c0 - y = -y := fun y => by
    show Ideal.ofBits .f32 0x00000000#32 - y = -y
    rw [Ideal.ofBits_zero_f32, zero_sub]
  rw [hc, select_zero, hz]
  rfl

/-- The row of counts at lane `k` (one of the ten bins): how many entries of the tile are in bin `k`. -/
theorem cntRow_apply (x0 : Vec Ideal S8192x80 .f32) (x1 : Vec Ideal S8192x80 .i32) (k : Fin 10) (l : Fin 128) (hl : l.val = k.val) :
    cntRow x0 x1 (ix2 0 l)
      = ∑ r : Fin 8192, ∑ c : Fin 80, if Ghm.binOf (x0 (ix2 r c)) (x1 (ix2 r c)) = BitVec.ofNat 32 k.val then (1 : EReal) else 0 := by
  unfold cntRow
  rw [cntChain_apply, lanes_apply, hl,
    sum_select _ (fun b => tileSum (ones (F := Ideal) (binsOf x0 x1) b) (ix2 0 0)) bins bins_nodup, if_pos (mem_bins k), tileSum_apply]
  refine Finset.sum_congr rfl fun r _ => Finset.sum_congr rfl fun c _ => ?_
  rw [ones_apply]; rfl

/-- The row of sums at lane `k`: the sum of the terms of the tile's entries in bin `k`. -/
theorem sumRow_apply (x0 : Vec Ideal S8192x80 .f32) (x1 : Vec Ideal S8192x80 .i32) (k : Fin 10) (l : Fin 128) (hl : l.val = k.val) :
    sumRow x0 x1 (ix2 0 l)
      = ∑ r : Fin 8192, ∑ c : Fin 80, if Ghm.binOf (x0 (ix2 r c)) (x1 (ix2 r c)) = BitVec.ofNat 32 k.val then Ghm.bceOf (x0 (ix2 r c)) (x1 (ix2 r c)) else 0 := by
  unfold sumRow
  rw [sumChain_apply, lanes_apply, hl,
    sum_select _ (fun b => tileSum (picked (binsOf x0 x1) (termsOf x0 x1) b) (ix2 0 0)) bins bins_nodup, if_pos (mem_bins k), tileSum_apply]
  refine Finset.sum_congr rfl fun r _ => Finset.sum_congr rfl fun c _ => ?_
  rw [picked_apply, termsOf_apply]; rfl

/-- A row of the block with a row of lanes added, at lane `l`. -/
theorem rowPlus_apply (old : Vec Ideal S1x1x128 .f32) (r : FVec Ideal S1x128 .f32) (l : Fin 128) :
    rowPlus old r (ix3 0 0 l) = old (ix3 0 0 l) + r (ix2 0 l) := by
  unfold rowPlus
  refine (shapeCast_ab_1ab_apply _ _ 0 0 l).trans ?_
  show shapeCast S1x128 old shapeCasts_S1x1x128_S1x128 (ix2 0 l) + r (ix2 0 l) = _
  rw [shapeCast_1ab_ab_apply]

end Ideal3

end Cert.KernelIdeal.Tile

end
-- ==== Proof.CaseValues.lean ====
/-
  What one grid point leaves in the output block, read at rows 0 and 1.

  The block is 1 × 8 × 128. A point that is not the first of its core adds the tile's row of counts to row 0 and the tile's row
  of sums to row 1 of what the point before left, and touches nothing else. The first point of a core first stores zeros over the
  whole block, so it leaves the tile's two rows themselves.
-/
import proofs.«153797_j67929202754192_2_alg».proof.Proof.Gen.KernelIdeal.Frame
import proofs.«153797_j67929202754192_2_alg».proof.Proof.TileOps
import Idealize.ShloMosaic.Lib.WritesUnit
import Idealize.ShloMosaic.Lib.Pipeline.Value
import Idealize.ShloMosaic.Lib.Tactic

set_option maxRecDepth 16384

noncomputable section

namespace Cert.KernelIdeal.Cases

open Idealize.ShloMosaic Idealize.ShloMosaic.TcCoe Idealize.ShloMosaic.ValueIdx Idealize.SL.Sem
open Cert.KernelIdeal Cert.KernelIdeal.Gen Cert.KernelIdeal.Tile

theorem hz2 : (![0, 0] : Fin 2 → Nat) = fun _ => 0 := funext fun a => by fin_cases a <;> rfl

/-- Rows 0 and 1 of the block, as rectangles of it. -/
abbrev row0 : Rect S1x8x128 := Rect.unit (s := S1x8x128) ![0, 0, 0] ![1, 1, 128] inb_S1x8x128_S1x1x128_0_0_0
abbrev row1 : Rect S1x8x128 := Rect.unit (s := S1x8x128) ![0, 1, 0] ![1, 1, 128] inb_S1x8x128_S1x1x128_0_1_0

/-- Lane `l` of row 0 (of row 1) of the block is the block's entry (0, 0, l) (entry (0, 1, l)). -/
theorem row0_idx (l : Fin 128) : row0.idx (ix3 (0 : Fin 1) (0 : Fin 1) l) = ix3 (0 : Fin 1) (0 : Fin 8) l :=
  funext fun a => Fin.ext (by
    match a with
    | ⟨0, _⟩ => rfl
    | ⟨1, _⟩ => rfl
    | ⟨2, _⟩ => show 0 + 1 * l.val = l.val; omega)
theorem row1_idx (l : Fin 128) : row1.idx (ix3 (0 : Fin 1) (0 : Fin 1) l) = ix3 (0 : Fin 1) (1 : Fin 8) l :=
  funext fun a => Fin.ext (by
    match a with
    | ⟨0, _⟩ => rfl
    | ⟨1, _⟩ => rfl
    | ⟨2, _⟩ => show 0 + 1 * l.val = l.val; omega)

/-! ## A point that is not the first of its core -/

/-- Row 0 after such a point: the old row 0 plus the tile's counts. -/
theorem caseB_cnt (c : Dev nD) (i : grid0.Coords) (a2 : Memref sig .tc .vmem S8192x80 .f32) (h2 : a2.IsWhole) (a3 : Memref sig .tc .vmem S8192x80 .i32) (h3 : a3.IsWhole)
    (a4 : Memref sig .tc .vmem S1x8x128 .f32) (h4 : a4.IsWhole) (hc : ¬cond0_0 i) (x0 : Vec Ideal S8192x80 .f32) (x1 : Vec Ideal S8192x80 .i32) (xo : Vec Ideal S1x8x128 .f32) (l : Fin 128) :
    out0_B_2 c i a2 h2 a3 h3 a4 h4 hc x0 x1 xo (ix3 0 0 l) = xo (ix3 0 0 l) + cntRow x0 x1 (ix2 0 l) := by
  unfold out0_B_2 kernelRun0_B
  dsimp only
  sl_unfold_words
  simp only [View.readAt_eq_ld, h2.read_unread, h3.read_unread, h4.read_unread, View.ld_unit_zero (S := S8192x80) hz2]
  refine (View.read_writes_cons_unit_of_not_mem _ _ _ _ _ _ rfl 1 (Or.inl Nat.zero_lt_one)).trans ?_
  refine (View.read_writes_cons_unit_of_mem _ _ _ _ _ _ (ix3 0 0 l) rfl (fun a => by
    match a with
    | ⟨0, _⟩ => rfl
    | ⟨1, _⟩ => rfl
    | ⟨2, _⟩ => show l.val = 0 + l.val; omega)).trans ?_
  refine (congrFun (store0_eq x0 x1 _) _).trans ?_
  refine (rowPlus_apply _ _ l).trans ?_
  show xo (row0.idx (ix3 0 0 l)) + _ = _
  rw [row0_idx]

/-- Row 1 after such a point: the old row 1 plus the tile's sums. -/
theorem caseB_sum (c : Dev nD) (i : grid0.Coords) (a2 : Memref sig .tc .vmem S8192x80 .f32) (h2 : a2.IsWhole) (a3 : Memref sig .tc .vmem S8192x80 .i32) (h3 : a3.IsWhole)
    (a4 : Memref sig .tc .vmem S1x8x128 .f32) (h4 : a4.IsWhole) (hc : ¬cond0_0 i) (x0 : Vec Ideal S8192x80 .f32) (x1 : Vec Ideal S8192x80 .i32) (xo : Vec Ideal S1x8x128 .f32) (l : Fin 128) :
    out0_B_2 c i a2 h2 a3 h3 a4 h4 hc x0 x1 xo (ix3 0 1 l) = xo (ix3 0 1 l) + sumRow x0 x1 (ix2 0 l) := by
  unfold out0_B_2 kernelRun0_B
  dsimp only
  sl_unfold_words
  simp only [View.readAt_eq_ld, h2.read_unread, h3.read_unread, h4.read_unread, View.ld_unit_zero (S := S8192x80) hz2]
  refine (View.read_writes_cons_unit_of_mem _ _ _ _ _ _ (ix3 0 0 l) rfl (fun a => by
    match a with
    | ⟨0, _⟩ => rfl
    | ⟨1, _⟩ => rfl
    | ⟨2, _⟩ => show l.val = 0 + l.val; omega)).trans ?_
  refine (congrFun (store1_eq x0 x1 _) _).trans ?_
  refine (rowPlus_apply _ _ l).trans ?_
  show xo (row1.idx (ix3 0 0 l)) + _ = _
  rw [row1_idx]

/-! ## The first point of a core -/

/-- Whatever was there, after zeros are stored over the whole block every entry reads zero. -/
theorem zero_block_read (v : View sig .tc .vmem S1x8x128 .f32) (f : v.ty.Contents (Elt Ideal)) (y : S1x8x128.Idx) :
    v.read (Elt Ideal) (v.writes (Elt Ideal) f
      [(⟨Rect.unit (s := S1x8x128) ![0, 0, 0] S1x8x128.size inb_S1x8x128_S1x8x128_0_0_0, k0_pay6 (F := Ideal)⟩ : View.Piece (Elt Ideal) S1x8x128 .f32)]) y = 0 := by
  refine (View.read_writes_cons_unit_of_mem v f _ _ _ y y rfl (fun a => by
    match a with
    | ⟨0, _⟩ => show (y 0).val = 0 + (y 0).val; omega
    | ⟨1, _⟩ => show (y 1).val = 0 + (y 1).val; omega
    | ⟨2, _⟩ => show (y 2).val = 0 + (y 2).val; omega)).trans ?_
  show Ideal.ofBits .f32 0x00000000#32 = 0
  exact Ideal.ofBits_zero_f32

/-- Row 0 after the first point of a core: the tile's counts. -/
theorem caseA_cnt (c : Dev nD) (i : grid0.Coords) (a2 : Memref sig .tc .vmem S8192x80 .f32) (h2 : a2.IsWhole) (a3 : Memref sig .tc .vmem S8192x80 .i32) (h3 : a3.IsWhole)
    (a4 : Memref sig .tc .vmem S1x8x128 .f32) (h4 : a4.IsWhole) (hc : cond0_0 i) (x0 : Vec Ideal S8192x80 .f32) (x1 : Vec Ideal S8192x80 .i32) (l : Fin 128) :
    out0_A_2 c i a2 h2 a3 h3 a4 h4 hc x0 x1 (ix3 0 0 l) = cntRow x0 x1 (ix2 0 l) := by
  unfold out0_A_2 kernelRun0_A
  dsimp only
  sl_unfold_words
  simp only [View.readAt_eq_ld, h2.read_unread, h3.read_unread, View.ld_unit_zero (S := S8192x80) hz2]
  refine (View.read_writes_cons_unit_of_not_mem _ _ _ _ _ _ rfl 1 (Or.inl Nat.zero_lt_one)).trans ?_
  refine (View.read_writes_cons_unit_of_mem _ _ _ _ _ _ (ix3 0 0 l) rfl (fun a => by
    match a with
    | ⟨0, _⟩ => rfl
    | ⟨1, _⟩ => rfl
    | ⟨2, _⟩ => show l.val = 0 + l.val; omega)).trans ?_
  refine (congrFun (store0_eq x0 x1 _) _).trans ?_
  refine (rowPlus_apply _ _ l).trans ?_
  have hold : a4.view.readCov [(⟨Rect.unit (s := S1x8x128) ![0, 0, 0] S1x8x128.size inb_S1x8x128_S1x8x128_0_0_0, k0_pay6 (F := Ideal)⟩ : View.Piece (Elt Ideal) S1x8x128 .f32)]
      row0.toLoadRect (ix3 0 0 l) = 0 := by
    show a4.view.read (Elt Ideal) (a4.view.writes (Elt Ideal) a4.view.junk _) (row0.idx (ix3 0 0 l)) = 0
    exact zero_block_read _ _ _
  rw [hold, zero_add]

/-- Row 1 after the first point of a core: the tile's sums. -/
theorem caseA_sum (c : Dev nD) (i : grid0.Coords) (a2 : Memref sig .tc .vmem S8192x80 .f32) (h2 : a2.IsWhole) (a3 : Memref sig .tc .vmem S8192x80 .i32) (h3 : a3.IsWhole)
    (a4 : Memref sig .tc .vmem S1x8x128 .f32) (h4 : a4.IsWhole) (hc : cond0_0 i) (x0 : Vec Ideal S8192x80 .f32) (x1 : Vec Ideal S8192x80 .i32) (l : Fin 128) :
    out0_A_2 c i a2 h2 a3 h3 a4 h4 hc x0 x1 (ix3 0 1 l) = sumRow x0 x1 (ix2 0 l) := by
  unfold out0_A_2 kernelRun0_A
  dsimp only
  sl_unfold_words
  simp only [View.readAt_eq_ld, h2.read_unread, h3.read_unread, View.ld_unit_zero (S := S8192x80) hz2]
  refine (View.read_writes_cons_unit_of_mem _ _ _ _ _ _ (ix3 0 0 l) rfl (fun a => by
    match a with
    | ⟨0, _⟩ => rfl
    | ⟨1, _⟩ => rfl
    | ⟨2, _⟩ => show l.val = 0 + l.val; omega)).trans ?_
  refine (congrFun (store1_eq x0 x1 _) _).trans ?_
  refine (rowPlus_apply _ _ l).trans ?_
  have hold : ∀ (w : (Rect.unit (s := S1x8x128) ![0, 0, 0] S1x1x128.size inb_S1x8x128_S1x1x128_0_0_0).shape.Idx → Ideal .f32),
      a4.view.readCov [(⟨Rect.unit (s := S1x8x128) ![0, 0, 0] S1x1x128.size inb_S1x8x128_S1x1x128_0_0_0, w⟩ : View.Piece (Elt Ideal) S1x8x128 .f32),
        (⟨Rect.unit (s := S1x8x128) ![0, 0, 0] S1x8x128.size inb_S1x8x128_S1x8x128_0_0_0, k0_pay6 (F := Ideal)⟩ : View.Piece (Elt Ideal) S1x8x128 .f32)]
      row1.toLoadRect (ix3 0 0 l) = 0 := by
    intro w
    show a4.view.read (Elt Ideal) (a4.view.writes (Elt Ideal) a4.view.junk _) (row1.idx (ix3 0 0 l)) = 0
    rw [row1_idx]
    refine (View.read_writes_cons_unit_of_not_mem _ _ _ _ _ _ rfl 1 (Or.inr (Nat.le_refl 1))).trans ?_
    exact zero_block_read _ _ _
  rw [hold, zero_add]

end Cert.KernelIdeal.Cases

end
-- ==== Proof.Accumulate.lean ====
/-
  The output array after the run: what each core's sixteen points add up to.

  Core `c` (of two) meets the tiles `16c, 16c+1, …, 16c+15` in order; tile `t` is rows `8192·t … 8192·t+8191` of the two argument
  arrays. The first point of a core leaves the tile's two rows in rows 0 and 1 of the output block, every later point adds its tile's
  two rows to them, and the block is written back once, after the core's last point, as block `c` of the 2 × 8 × 128 result. So entry
  (c, 0, k) of the result, for a bin k, is the number of entries of core c's sixteen tiles in bin k, and entry (c, 1, k) the sum of
  their terms.
-/
import proofs.«153797_j67929202754192_2_alg».proof.Proof.CaseValues

set_option maxRecDepth 16384

noncomputable section

namespace Cert.KernelIdeal.Acc

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Tile Cert.KernelIdeal.Cases

/-! ## A running sum restarted every sixteenth step -/

/-- If `out` restarts at `f n` whenever `n` is a multiple of 16 and otherwise adds `f n` to its previous value, then `out n` is the sum
    of `f` from the last multiple of 16 up to `n`. -/
theorem restart_sum {N : ℕ} (f : ℕ → EReal) (out : (n : ℕ) → n < N → EReal)
    (h0 : ∀ n (h : n < N), n % 16 = 0 → out n h = f n)
    (hS : ∀ n (h : n + 1 < N), ¬(n + 1) % 16 = 0 → out (n + 1) h = out n (Nat.lt_of_succ_lt h) + f (n + 1)) :
    ∀ n (h : n < N), out n h = ∑ j ∈ Finset.range (n % 16 + 1), f (n - n % 16 + j)
  | 0, h => by rw [h0 0 h rfl]; simp
  | n + 1, h => by
    by_cases hm : (n + 1) % 16 = 0
    · rw [h0 (n + 1) h hm, hm]; simp
    · rw [hS n h hm, restart_sum f out h0 hS n (Nat.lt_of_succ_lt h)]
      have e1 : (n + 1) % 16 = n % 16 + 1 := by omega
      have e2 : n + 1 - (n % 16 + 1) = n - n % 16 := by omega
      rw [e1, e2, Finset.sum_range_succ (fun j => f (n - n % 16 + j)) (n % 16 + 1)]
      congr 2
      omega

variable (m : (ℓ : Loc nD τ sig) → Buf (Elt Ideal) ℓ)

/-! ## A tile is a block of rows of the argument arrays -/

/-- The two argument arrays. -/
abbrev P (c : Dev nD) : S262144x80.Idx → EReal := m ((c : Thread nD τ).loc main_arg0)
abbrev T (c : Dev nD) : S262144x80.Idx → BitVec 32 := m ((c : Thread nD τ).loc main_arg1)

/-- The printed index maps, decided over the grid: point `t` stages tile `t` of both inputs, and output block `t / 16`. -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)
theorem idx_out : ∀ t : Fin cfg0.N, win0_2.index t (0 : Fin 3) = t.val / 16 ∧ win0_2.index t (1 : Fin 3) = 0 ∧ win0_2.index t (2 : Fin 3) = 0 :=
  (by decide +kernel : ∀ t : Fin grid0.N, _)

theorem row_lt (t : Fin cfg0.N) (r : Fin 8192) : 8192 * t.val + r.val < 262144 := by
  have := lt_of_lt_of_eq t.isLt (show cfg0.N = 32 from N_0); have := r.isLt; omega

/-- Entry (r, cc) of tile `t` of the predictions is entry (8192·t + r, cc) of the array; the same for the labels. -/
theorem iblk0_apply (c : Dev nD) (t : Fin cfg0.N) (r : Fin 8192) (cc : Fin 80) :
    (iblk m c 0 t : Vec Ideal S8192x80 .f32) (ix2 r cc) = P m c (ix2 ⟨8192 * t.val + r.val, row_lt t r⟩ cc) := by
  obtain ⟨e0, e1, -, -⟩ := idx_in t
  unfold iblk
  rw [View.read_apply]
  show V m c main_arg0 _ = m (c.tc.loc main_arg0) _
  unfold V
  congr 1
  funext a
  apply Fin.ext
  match a with
  | ⟨0, _⟩ => show win0_0.index t 0 * 8192 + 1 * r.val = 8192 * t.val + r.val; rw [e0]; omega
  | ⟨1, _⟩ => show win0_0.index t 1 * 80 + 1 * cc.val = cc.val; rw [e1]; omega
theorem iblk1_apply (c : Dev nD) (t : Fin cfg0.N) (r : Fin 8192) (cc : Fin 80) :
    (iblk m c 1 t : Vec Ideal S8192x80 .i32) (ix2 r cc) = T m c (ix2 ⟨8192 * t.val + r.val, row_lt t r⟩ cc) := by
  obtain ⟨-, -, e0, e1⟩ := idx_in t
  unfold iblk
  rw [View.read_apply]
  show V m c main_arg1 _ = m (c.tc.loc main_arg1) _
  unfold V
  congr 1
  funext a
  apply Fin.ext
  match a with
  | ⟨0, _⟩ => show win0_1.index t 0 * 8192 + 1 * r.val = 8192 * t.val + r.val; rw [e0]; omega
  | ⟨1, _⟩ => show win0_1.index t 1 * 80 + 1 * cc.val = cc.val; rw [e1]; omega

/-! ## Per row and per tile, in the specification's terms -/

/-- Row `R` of the arrays: how many of its 80 entries are in bin `k`, and the sum of their terms. -/
def rowCnt (c : Dev nD) (k : Fin 10) (R : Fin 262144) : EReal :=
  ∑ cc : Fin 80, if Ghm.binAt (P m c) (T m c) R cc = BitVec.ofNat 32 k.val then (1 : EReal) else 0
def rowSum (c : Dev nD) (k : Fin 10) (R : Fin 262144) : EReal :=
  ∑ cc : Fin 80, if Ghm.binAt (P m c) (T m c) R cc = BitVec.ofNat 32 k.val then Ghm.bceAt (P m c) (T m c) R cc else 0

/-- Tile `t`'s count and sum for bin `k` (zero past the last tile). -/
def tileCnt (c : Dev nD) (k : Fin 10) (t : ℕ) : EReal :=
  if h : t < 32 then ∑ r : Fin 8192, rowCnt m c k ⟨8192 * t + r.val, by have := r.isLt; omega⟩ else 0
def tileTot (c : Dev nD) (k : Fin 10) (t : ℕ) : EReal :=
  if h : t < 32 then ∑ r : Fin 8192, rowSum m c k ⟨8192 * t + r.val, by have := r.isLt; omega⟩ else 0

/-- The row of counts (of sums) the body forms from point `t`'s two blocks is tile `t`'s, at the lane of bin `k`. -/
theorem tile_cnt (c : Dev nD) (k : Fin 10) (l : Fin 128) (hl : l.val = k.val) (t : Fin cfg0.N) :
    cntRow (iblk m c 0 t) (iblk m c 1 t) (ix2 0 l) = tileCnt m c k t.val := by
  have ht : t.val < 32 := lt_of_lt_of_eq t.isLt (show cfg0.N = 32 from N_0)
  refine (cntRow_apply (iblk m c 0 t) (iblk m c 1 t) k l hl).trans ?_
  unfold tileCnt; rw [dif_pos ht]
  refine Finset.sum_congr rfl fun r _ => ?_
  unfold rowCnt
  refine Finset.sum_congr rfl fun cc _ => ?_
  rw [iblk0_apply, iblk1_apply]; rfl
theorem tile_tot (c : Dev nD) (k : Fin 10) (l : Fin 128) (hl : l.val = k.val) (t : Fin cfg0.N) :
    sumRow (iblk m c 0 t) (iblk m c 1 t) (ix2 0 l) = tileTot m c k t.val := by
  have ht : t.val < 32 := lt_of_lt_of_eq t.isLt (show cfg0.N = 32 from N_0)
  refine (sumRow_apply (iblk m c 0 t) (iblk m c 1 t) k l hl).trans ?_
  unfold tileTot; rw [dif_pos ht]
  refine Finset.sum_congr rfl fun r _ => ?_
  unfold rowSum
  refine Finset.sum_congr rfl fun cc _ => ?_
  rw [iblk0_apply, iblk1_apply]; rfl

/-! ## What the block holds after each point -/

/-- Row 0 of the block after point `n`, at the lane of bin `k`: the counts of the tiles from the core's first up to `n`. -/
theorem acc_cnt (c : Dev nD) (k : Fin 10) (l : Fin 128) (hl : l.val = k.val) :
    ∀ n (h : n < cfg0.N), outsAt0 m c n h (ix3 0 0 l) = ∑ j ∈ Finset.range (n % 16 + 1), tileCnt m c k (n - n % 16 + j) :=
  restart_sum (tileCnt m c k) (fun n h => outsAt0 m c n h (ix3 0 0 l))
    (fun n h h0 => (congrFun (outsAt0_A m c ⟨n, h⟩ h0) _).trans
      ((caseA_cnt c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
        ((hcond0_0 ⟨n, h⟩).mpr h0) (iblk m c 0 ⟨n, h⟩) (iblk m c 1 ⟨n, h⟩) l).trans (tile_cnt m c k l hl ⟨n, h⟩)))
    (fun n h hm => (congrFun (outsAt0_B m c ⟨n + 1, h⟩ hm) _).trans
      ((caseB_cnt c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
        (fun hh => hm ((hcond0_0 ⟨n + 1, h⟩).mp hh)) (iblk m c 0 ⟨n + 1, h⟩) (iblk m c 1 ⟨n + 1, h⟩)
        (outsAt0 m c n (Nat.lt_of_succ_lt h)) l).trans (congrArg _ (tile_cnt m c k l hl ⟨n + 1, h⟩))))

/-- Row 1 of the block after point `n`, at the lane of bin `k`: the sums of the tiles from the core's first up to `n`. -/
theorem acc_tot (c : Dev nD) (k : Fin 10) (l : Fin 128) (hl : l.val = k.val) :
    ∀ n (h : n < cfg0.N), outsAt0 m c n h (ix3 0 1 l) = ∑ j ∈ Finset.range (n % 16 + 1), tileTot m c k (n - n % 16 + j) :=
  restart_sum (tileTot m c k) (fun n h => outsAt0 m c n h (ix3 0 1 l))
    (fun n h h0 => (congrFun (outsAt0_A m c ⟨n, h⟩ h0) _).trans
      ((caseA_sum c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
        ((hcond0_0 ⟨n, h⟩).mpr h0) (iblk m c 0 ⟨n, h⟩) (iblk m c 1 ⟨n, h⟩) l).trans (tile_tot m c k l hl ⟨n, h⟩)))
    (fun n h hm => (congrFun (outsAt0_B m c ⟨n + 1, h⟩ hm) _).trans
      ((caseB_sum c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
        (fun hh => hm ((hcond0_0 ⟨n + 1, h⟩).mp hh)) (iblk m c 0 ⟨n + 1, h⟩) (iblk m c 1 ⟨n + 1, h⟩)
        (outsAt0 m c n (Nat.lt_of_succ_lt h)) l).trans (congrArg _ (tile_tot m c k l hl ⟨n + 1, h⟩))))

/-! ## The result array -/

/-- The block after point `n`, for any number `n` (zeros past the grid). -/
def outT (c : Dev nD) (n : ℕ) : Vec Ideal S1x8x128 .f32 := if h : n < cfg0.N then outsAt0 m c n h else fun _ => 0
theorem outT_eq (c : Dev nD) (n : ℕ) (h : n < cfg0.N) : outT m c n = outsAt0 m c n h := dif_pos h

/-- The result array: block `q` is what the block holds after point `16q + 15`, the last of core `q`. -/
def Gout (c : Dev nD) : S2x8x128.Idx → EReal := fun y => outT m c (16 * (y 0).val + 15) (ix3 (0 : Fin 1) (y 1) (y 2))

/-- What a point that writes back (the last of its core) writes is its block of that array. -/
theorem flushed_eq (c : Dev nD) (t : Fin cfg0.N) (hf : (cfg0.win 2).flush t = true) :
    (dats m 0 c).flushed 2 t = ((cfg0.win 2).blk t).view.read (Elt Ideal) (Gout m c) := by
  have h15 : t.val % 16 = 15 := (flush0_2 t).mp hf
  obtain ⟨e0, e1, e2⟩ := idx_out t
  show (cfg0.win 2).cut (grid0.coords t) ((dats m 0 c).after 2 t) = _
  rw [after0_2]
  funext x
  rw [View.read_apply]
  show outsAt0 m c t.val t.isLt x = outT m c (16 * ((((cfg0.win 2).blk t).view.emb x) 0).val + 15)
    (ix3 (0 : Fin 1) ((((cfg0.win 2).blk t).view.emb x) 1) ((((cfg0.win 2).blk t).view.emb x) 2))
  have hx0 : (x 0).val < 1 := (x 0).isLt
  have hi0 : ((((cfg0.win 2).blk t).view.emb x) 0).val = t.val / 16 := by
    show win0_2.index t 0 * 1 + 1 * (x 0).val = _
    rw [e0]; omega
  have hn : 16 * ((((cfg0.win 2).blk t).view.emb x) 0).val + 15 = t.val := by rw [hi0]; omega
  rw [hn, outT_eq m c t.val t.isLt]
  refine congrArg (outsAt0 m c t.val t.isLt) (funext fun a => Fin.ext ?_)
  match a with
  | ⟨0, _⟩ => show (x 0).val = 0; omega
  | ⟨1, _⟩ => show (x 1).val = win0_2.index t 1 * 8 + 1 * (x 1).val; rw [e1]; omega
  | ⟨2, _⟩ => show (x 2).val = win0_2.index t 2 * 128 + 1 * (x 2).val; rw [e2]; omega

/-- An index of the result is in point `t`'s block iff each coordinate is in the block's range. -/
theorem mem_blk (t : Fin cfg0.N) (i : S2x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v0).slice (win0_2.rect t)).set ↔ _
  rw [View.set_slice_whole, Rect.mem_set_unit]
  exact Iff.rfl

/-- Every index of the result is in the block of some point that writes back: block `q` is point `16q + 15`'s. -/
theorem cover (i : S2x8x128.Idx) : ∃ t : Fin cfg0.N, (cfg0.win 2).flush t = true ∧ i ∈ ((cfg0.win 2).blk t).view.set := by
  have h0 : (i 0).val < 2 := (i 0).isLt
  have h1 : (i 1).val < 8 := (i 1).isLt
  have h2 : (i 2).val < 128 := (i 2).isLt
  have hN : 16 * (i 0).val + 15 < cfg0.N := by rw [show cfg0.N = 32 from N_0]; omega
  obtain ⟨e0, e1, e2⟩ := idx_out ⟨16 * (i 0).val + 15, hN⟩
  have e0' : win0_2.index ⟨16 * (i 0).val + 15, hN⟩ 0 = (16 * (i 0).val + 15) / 16 := e0
  refine ⟨⟨16 * (i 0).val + 15, hN⟩, (flush0_2 _).mpr (by show (16 * (i 0).val + 15) % 16 = 15; omega), ?_⟩
  rw [mem_blk]
  intro a
  match a with
  | ⟨0, _⟩ => show win0_2.index ⟨16 * (i 0).val + 15, hN⟩ 0 * 1 ≤ (i 0).val ∧ (i 0).val < win0_2.index ⟨16 * (i 0).val + 15, hN⟩ 0 * 1 + 1; rw [e0']; omega
  | ⟨1, _⟩ => show win0_2.index ⟨16 * (i 0).val + 15, hN⟩ 1 * 8 ≤ (i 1).val ∧ (i 1).val < win0_2.index ⟨16 * (i 0).val + 15, hN⟩ 1 * 8 + 8; rw [e1]; omega
  | ⟨2, _⟩ => show win0_2.index ⟨16 * (i 0).val + 15, hN⟩ 2 * 128 ≤ (i 2).val ∧ (i 2).val < win0_2.index ⟨16 * (i 0).val + 15, hN⟩ 2 * 128 + 128; rw [e2]; omega

/-- So the result array ends holding it. -/
theorem final_out (c : Dev nD) : (dats m 0 c).arrAt 2 cfg0.N = Gout m c :=
  (dats m 0 c).arrAt_eq_of_cover 2 (Gout m c) (flushed_eq m c) cover

/-- Entry (q, 0, k) of the result: the count of bin `k` over core `q`'s sixteen tiles; entry (q, 1, k): the sum of its terms. -/
theorem Gout_cnt (c : Dev nD) (q : Fin 2) (k : Fin 10) :
    Gout m c (ix3 q 0 ⟨k.val, by omega⟩) = ∑ j ∈ Finset.range 16, tileCnt m c k (16 * q.val + j) := by
  have hq : q.val < 2 := q.isLt
  have hN : 16 * q.val + 15 < cfg0.N := by rw [show cfg0.N = 32 from N_0]; omega
  show outT m c (16 * q.val + 15) (ix3 0 0 ⟨k.val, by omega⟩) = _
  rw [outT_eq m c _ hN, acc_cnt m c k ⟨k.val, by omega⟩ rfl _ hN]
  have e1 : (16 * q.val + 15) % 16 + 1 = 16 := by omega
  have e2 : 16 * q.val + 15 - (16 * q.val + 15) % 16 = 16 * q.val := by omega
  rw [e1, e2]
theorem Gout_tot (c : Dev nD) (q : Fin 2) (k : Fin 10) :
    Gout m c (ix3 q 1 ⟨k.val, by omega⟩) = ∑ j ∈ Finset.range 16, tileTot m c k (16 * q.val + j) := by
  have hq : q.val < 2 := q.isLt
  have hN : 16 * q.val + 15 < cfg0.N := by rw [show cfg0.N = 32 from N_0]; omega
  show outT m c (16 * q.val + 15) (ix3 0 1 ⟨k.val, by omega⟩) = _
  rw [outT_eq m c _ hN, acc_tot m c k ⟨k.val, by omega⟩ rfl _ hN]
  have e1 : (16 * q.val + 15) % 16 + 1 = 16 := by omega
  have e2 : 16 * q.val + 15 - (16 * q.val + 15) % 16 = 16 * q.val := by omega
  rw [e1, e2]

end Cert.KernelIdeal.Acc

end
-- ==== Proof.TileSplit.lean ====
/-
  The rows of the array, tile by tile.

  The 262144 rows are 32 tiles of 8192 rows, tile `t` holding the rows `8192·t … 8192·t + 8191`; the 32 tiles are
  2 groups of 16, tile `16·c + j` being the `j`-th of group `c`. A sum over all the rows is therefore the sum, over the
  two groups and over the sixteen tiles of a group, of the sums over the 8192 rows of a tile. (Every tile number
  `16·c + j` with `c < 2` and `j < 16` is below 32, so the guard on the tile number never fails.)
-/
import proofs.«153797_j67929202754192_2_alg».proof.Proof.LibSumSplit

open scoped BigOperators

namespace Ghm

/-- Row `r` of tile `t`, of 32 tiles of 8192 rows, is one of the 262144 rows. -/
theorem tile_row_lt {t : ℕ} (h : t < 32) (r : Fin 8192) : 8192 * t + r.val < 262144 := by
  have := r.isLt; omega

/-- A sum over the 262144 rows, taken group by group, tile by tile, row by row. -/
theorem sum_tiles {M : Type*} [AddCommMonoid M] (g : Fin 262144 → M) :
    ∑ c : Fin 2, ∑ j ∈ Finset.range 16,
        (if h : 16 * c.val + j < 32 then ∑ r : Fin 8192, g ⟨8192 * (16 * c.val + j) + r.val, by omega⟩ else 0)
      = ∑ R : Fin 262144, g R := by
  -- the rows are 32 tiles of 8192
  have h1 : ∑ R : Fin 262144, g R
      = ∑ kk : Fin 32, ∑ s : Fin 8192, g ⟨8192 * kk.val + s.val, tile_row_lt kk.isLt s⟩ :=
    SumSplit.sum_blocks 32 8192 g
  -- the tiles are 2 groups of 16
  have h2 := SumSplit.sum_blocks 2 16
    (fun kk : Fin (2 * 16) => ∑ s : Fin 8192, g ⟨8192 * kk.val + s.val, tile_row_lt kk.isLt s⟩)
  rw [h1]
  refine Eq.trans ?_ h2.symm
  refine Finset.sum_congr rfl fun c _ => ?_
  rw [Finset.sum_range]
  refine Finset.sum_congr rfl fun j _ => ?_
  have hlt : 16 * c.val + j.val < 32 := by have := c.isLt; have := j.isLt; omega
  rw [dif_pos hlt]

end Ghm
-- ==== Proof.KernelTail.lean ====
/-
  The kernel program's host operations after the kernel, read on the extended reals.

  The kernel leaves a [2, 8, 128] array `O`: one [8, 128] tile per group of grid points, row 0 of a tile holding in its
  columns 0 … 9 the ten bin counts that group accumulated and row 1 the ten bin totals. The host operations that follow
  add the two tiles, read the counts `C b = O[0, 0, b] + O[1, 0, b]` and the totals `S b = O[0, 1, b] + O[1, 1, b]`, count
  the bins whose count is above zero (`n`, a 32-bit word), weigh bin `b` by `(N / max (C b) 1 if C b > 0, else 0) / max n 1`,
  and return `(0 + ∑ b, weight b · S b) / N`. That is the loss formed from the per-bin totals (`Ghm.lossByBins`) at these
  counts and totals: each operation is read at an explicit index (a slice shifts the index by its offsets, a cast that
  drops a leading unit axis puts a 0 back, a broadcast of a scalar reads the scalar, the arithmetic is entry by entry, and
  the sum over the one axis of a vector into a scalar is the sum over its ten coordinates).
-/
import proofs.«153797_j67929202754192_2_alg».proof.Proof.Gen.KernelIdeal.Frame
import proofs.«153797_j67929202754192_2_alg».proof.Proof.GhmSpec
import Idealize.ShloMosaic.Lib.Pipeline.Value
import Idealize.ShloMosaic.Lib.StableHlo.Run
import Idealize.ShloMosaic.Lib.ValueLayout
import Idealize.ShloMosaic.Lib.IdealHost
import Idealize.ShloMosaic.PureOps.Ideal.Laws

noncomputable section

namespace Cert.KernelIdeal.Tail

open Idealize.ShloMosaic Idealize.ShloMosaic.TcCoe Idealize.ShloMosaic.Tactic
open Idealize.ShloMosaic.ValueIdx
open Cert.KernelIdeal Cert.KernelIdeal.Gen
open Idealize.ShloMosaic.Pipeline (Dat Cfg Window BodyObligation cellOf)

variable (m : (ℓ : Loc nD τ sig) → Buf (Elt Ideal) ℓ)

/-! ## The host operations after the kernel, as one term over the kernel's result

The kernel's result `O` is a [2, 8, 128] array: one [8, 128] tile per group of grid points, whose row 0 holds the ten
bin counts and whose row 1 the ten bin totals that group accumulated. The host adds the two tiles, reads the counts and
the totals off rows 0 and 1, counts the nonempty bins, weighs each bin, and sums the weighted totals. -/

section Terms
variable (O : S2x8x128.Idx → EReal)

/-- The two tiles added, entry by entry. -/
def x5 : S8x128.Idx → EReal :=
  addf (F := Ideal) (φ := .f32)
    (fun i => shapeCast S8x128 (extractStridedSlice S1x8x128 ![0, 0, 0] O slices_S2x8x128_S1x8x128_0_0_0) shapeCasts_S1x8x128_S8x128 i)
    (fun i => shapeCast S8x128 (extractStridedSlice S1x8x128 ![1, 0, 0] O slices_S2x8x128_S1x8x128_1_0_0) shapeCasts_S1x8x128_S8x128 i)

/-- The ten counts: row 0, columns 0 … 9. -/
def cntV : S10.Idx → EReal :=
  fun i => shapeCast S10 (extractStridedSlice S1x10 ![0, 0] (x5 O) slices_S8x128_S1x10_0_0) shapeCasts_S1x10_S10 i

/-- The ten totals: row 1, columns 0 … 9. -/
def totV : S10.Idx → EReal :=
  fun i => shapeCast S10 (extractStridedSlice S1x10 ![1, 0] (x5 O) slices_S8x128_S1x10_1_0) shapeCasts_S1x10_S10 i

/-- The number of bins whose count is above zero, as a 32-bit word. -/
def nV : S_.Idx → BitVec 32 :=
  Host.reduce IntOp.addi
    (extui 32 (cmpf (F := Ideal) .ogt (cntV O) (broadcastInDim S10 ![] bcast_S_S10 (constant (F := Ideal) S_ .f32 0x00000000#32))) natLt_1_32)
    (constantI S_ 32 0#32) reducesTo_S10_S_d0 h_S_

/-- The ten weights: N / max(count, 1) where the count is above zero, else 0; divided by max(n, 1). -/
def wV : S10.Idx → EReal :=
  Host.divf (F := Ideal) (φ := .f32)
    (select (cmpf (F := Ideal) .ogt (cntV O) (broadcastInDim S10 ![] bcast_S_S10 (constant (F := Ideal) S_ .f32 0x00000000#32)))
      (Host.divf (F := Ideal) (φ := .f32) (broadcastInDim S10 ![] bcast_S_S10 (constant (F := Ideal) S_ .f32 0x4BA00000#32))
        (maximumf (F := Ideal) (φ := .f32) (cntV O) (broadcastInDim S10 ![] bcast_S_S10 (constant (F := Ideal) S_ .f32 0x3F800000#32))))
      (broadcastInDim S10 ![] bcast_S_S10 (constant (F := Ideal) S_ .f32 0x00000000#32)))
    (broadcastInDim S10 ![] bcast_S_S10
      (maximumf (F := Ideal) (φ := .f32) (sitofp (F := Ideal) .f32 (nV O)) (constant (F := Ideal) S_ .f32 0x3F800000#32)))

/-- The program's result: the weighted totals summed from zero, divided by N. -/
def tailOf : S_.Idx → EReal :=
  Host.divf (F := Ideal) (φ := .f32)
    (Host.reduceAdd (F := Ideal) (φ := .f32) (mulf (F := Ideal) (φ := .f32) (wV O) (totV O))
      (constant (F := Ideal) S_ .f32 0x00000000#32) reducesTo_S10_S_d0 h_S_)
    (constant (F := Ideal) S_ .f32 0x4BA00000#32)

end Terms

/-! ## The stages read at explicit indices -/

section Reads
variable (O : S2x8x128.Idx → EReal)

/-- Bin `b`'s count: the two tiles' entries at row 0, column `b`, added. -/
abbrev Cof (b : Fin 10) : EReal := O (ix3 (0 : Fin 2) (0 : Fin 8) (⟨b.val, by omega⟩ : Fin 128)) + O (ix3 (1 : Fin 2) (0 : Fin 8) (⟨b.val, by omega⟩ : Fin 128))
/-- Bin `b`'s total: the two tiles' entries at row 1, column `b`, added. -/
abbrev Sof (b : Fin 10) : EReal := O (ix3 (0 : Fin 2) (1 : Fin 8) (⟨b.val, by omega⟩ : Fin 128)) + O (ix3 (1 : Fin 2) (1 : Fin 8) (⟨b.val, by omega⟩ : Fin 128))

/-- The added tiles at (i, j): tile 0's entry plus tile 1's. -/
theorem x5_apply (i : Fin 8) (j : Fin 128) : x5 O (ix2 i j) = O (ix3 (0 : Fin 2) i j) + O (ix3 (1 : Fin 2) i j) := by
  have e0 : shapeCast S8x128 (extractStridedSlice S1x8x128 ![0, 0, 0] O slices_S2x8x128_S1x8x128_0_0_0) shapeCasts_S1x8x128_S8x128 (ix2 i j)
      = O (ix3 (0 : Fin 2) i j) := by
    rw [shapeCast_1ab_ab_apply]
    exact extractStridedSlice_apply _ _ _ _ _ (fun a => by
      match a with
      | ⟨0, _⟩ => rfl
      | ⟨1, _⟩ => exact (Nat.zero_add _).symm
      | ⟨2, _⟩ => exact (Nat.zero_add _).symm)
  have e1 : shapeCast S8x128 (extractStridedSlice S1x8x128 ![1, 0, 0] O slices_S2x8x128_S1x8x128_1_0_0) shapeCasts_S1x8x128_S8x128 (ix2 i j)
      = O (ix3 (1 : Fin 2) i j) := by
    rw [shapeCast_1ab_ab_apply]
    exact extractStridedSlice_apply _ _ _ _ _ (fun a => by
      match a with
      | ⟨0, _⟩ => rfl
      | ⟨1, _⟩ => exact (Nat.zero_add _).symm
      | ⟨2, _⟩ => exact (Nat.zero_add _).symm)
  exact congrArg₂ (· + ·) e0 e1

/-- The counts vector at `b`. -/
theorem cntV_apply (b : Fin 10) : cntV O (ix1 b) = Cof O b := by
  unfold cntV
  rw [shapeCast_1a_a_apply]
  rw [extractStridedSlice_apply ![0, 0] (x5 O) slices_S8x128_S1x10_0_0 (ix2 (0 : Fin 1) b) (ix2 (0 : Fin 8) (⟨b.val, by omega⟩ : Fin 128)) (fun a => by
    match a with
    | ⟨0, _⟩ => rfl
    | ⟨1, _⟩ => exact (Nat.zero_add _).symm)]
  exact x5_apply O _ _

/-- The totals vector at `b`. -/
theorem totV_apply (b : Fin 10) : totV O (ix1 b) = Sof O b := by
  unfold totV
  rw [shapeCast_1a_a_apply]
  rw [extractStridedSlice_apply ![1, 0] (x5 O) slices_S8x128_S1x10_1_0 (ix2 (0 : Fin 1) b) (ix2 (1 : Fin 8) (⟨b.val, by omega⟩ : Fin 128)) (fun a => by
    match a with
    | ⟨0, _⟩ => rfl
    | ⟨1, _⟩ => exact (Nat.zero_add _).symm)]
  exact x5_apply O _ _

/-- The counts vector is the function of the bin number the specification's count of nonempty bins is stated over. -/
theorem cntV_eq : cntV O = fun j : S10.Idx => Cof O (j 0) :=
  funext fun j => by rw [eq_ix1 j]; exact cntV_apply O (j 0)

/-- The host's count of nonempty bins is the specification's. -/
theorem nV_eq : nV O ix0 = Ghm.nWord (Cof O) bcast_S_S10 reducesTo_S10_S_d0 h_S_ natLt_1_32 := by
  unfold nV Ghm.nWord
  rw [cntV_eq]

/-- The weights vector at `b` is the specification's weight of bin `b`. -/
theorem wV_apply (b : Fin 10) :
    wV O (ix1 b) = Ghm.weight (Cof O) (Ghm.nWord (Cof O) bcast_S_S10 reducesTo_S10_S_d0 h_S_ natLt_1_32) b := by
  have hb : ∀ (x : S_.Idx → EReal) (i : S10.Idx), broadcastInDim S10 ![] bcast_S_S10 x i = x ix0 :=
    fun x i => broadcastInDim_scalar_apply _ x i
  unfold wV
  rw [hostDivf_apply, select_apply, cmpf_apply, hostDivf_apply, maximumf_apply, hb, hb, hb, hb, maximumf_apply, sitofp_apply,
    cntV_apply, nV_eq]
  rfl

/-- A sum over the indices of a vector is the sum over its one coordinate. -/
theorem sum_idx1 {M : Type*} [AddCommMonoid M] {n : Nat} (f : (⟨1, ![n]⟩ : Shape).Idx → M) :
    ∑ i, f i = ∑ a : Fin n, f (ix1 a) :=
  Fintype.sum_equiv ⟨fun j => j 0, ix1, fun j => (eq_ix1 j).symm, fun _ => rfl⟩ _ _ fun j => congrArg f (eq_ix1 j)

/-- The program's result is the loss formed from the per-bin totals. -/
theorem tailOf_eq : tailOf O = fun _ => Ghm.lossByBins (Cof O) (Sof O) (Ghm.nWord (Cof O) bcast_S_S10 reducesTo_S10_S_d0 h_S_ natLt_1_32) := by
  funext j
  unfold tailOf
  rw [hostDivf_apply, hostReduceAdd_apply, constant_apply, constant_apply,
    Ideal.hostReduceAdd_total reducesTo_S10_S_d0 (fun b => b.elim0), sum_idx1]
  unfold Ghm.lossByBins
  refine congrArg (fun s => Ideal.div (Ghm.c0 + s) Ghm.cN) ?_
  refine Finset.sum_congr rfl fun k _ => ?_
  rw [mulf_apply, wV_apply, totV_apply]

end Reads

/-! ## The kernel program's result -/

/-- After the kernel, the program's host operations turn the kernel's [2, 8, 128] result `O` into the loss formed from
    the per-bin totals: counts and totals the two tiles' rows 0 and 1 added, the number of nonempty bins counted from
    the counts. -/
theorem tail_eq (c : Dev nD) (O : S2x8x128.Idx → EReal) (hO : (dats m 0 c).arrAt 2 cfg0.N = O) :
    Pipeline.afterTail₀ cfgs (dats m) 0 (V0 m) [hostOps1, hostOps1_1, hostOps1_2] c main_v27
      = fun _ => Ghm.lossByBins (fun b => O (ix3 0 0 ⟨b.val, by omega⟩) + O (ix3 1 0 ⟨b.val, by omega⟩)) (fun b => O (ix3 0 1 ⟨b.val, by omega⟩) + O (ix3 1 1 ⟨b.val, by omega⟩))
          (Ghm.nWord (fun b => O (ix3 0 0 ⟨b.val, by omega⟩) + O (ix3 1 0 ⟨b.val, by omega⟩)) bcast_S_S10 reducesTo_S10_S_d0 h_S_ natLt_1_32) := by
  -- the kernel's result array, as the host operations find it
  have hW : Pipeline.withArrays (cfgs 0).spec c (V0 m c) (fun w => (dats m 0 c).arrAt w (cfgs 0).N) (Proc.devRef .tc main_v0) = O :=
    (Pipeline.withArrays_arr spec0 launch0.win.arr_inj c _ _ 2).trans hO
  unfold Pipeline.afterTail₀
  simp only [hostOps1, hostOps1_1, hostOps1_2, List.flatten_cons, List.flatten_nil, List.append_nil, List.cons_append, List.nil_append]
  after_results_simp
  rw [hW]
  exact tailOf_eq O

end Cert.KernelIdeal.Tail

end
-- ==== Proof.KernelValue.lean ====
/-
  The kernel program's result: the loss formed from the per-bin counts and totals of the whole arrays.

  The region leaves, in entry (q, 0, k) and (q, 1, k) of its 2 × 8 × 128 result, core q's count and total for bin k; the two cores'
  tiles are all 32 tiles of the arrays, so adding the two cores gives the whole arrays' count and total for each bin; the host lines
  after the region form the loss from those.
-/
import proofs.«153797_j67929202754192_2_alg».proof.Proof.Accumulate
import proofs.«153797_j67929202754192_2_alg».proof.Proof.TileSplit
import proofs.«153797_j67929202754192_2_alg».proof.Proof.KernelTail

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Acc

variable (m : (ℓ : Loc nD τ sig) → Buf (Elt Ideal) ℓ) (ρ : Dev nD → PrngReg)

/-- The two cores' counts for bin `k` add up to the whole arrays' count; the same for the totals. -/
theorem count_eq (c : Dev nD) (k : Fin 10) :
    Gout m c (ix3 0 0 ⟨k.val, by omega⟩) + Gout m c (ix3 1 0 ⟨k.val, by omega⟩) = Ghm.count (P m c) (T m c) k := by
  rw [Gout_cnt, Gout_cnt]
  have h := Ghm.sum_tiles (rowCnt m c k)
  rw [Fin.sum_univ_two] at h
  exact h
theorem total_eq (c : Dev nD) (k : Fin 10) :
    Gout m c (ix3 0 1 ⟨k.val, by omega⟩) + Gout m c (ix3 1 1 ⟨k.val, by omega⟩) = Ghm.total (P m c) (T m c) k := by
  rw [Gout_tot, Gout_tot]
  have h := Ghm.sum_tiles (rowSum m c k)
  rw [Fin.sum_univ_two] at h
  exact h

/-- The kernel program's run, read: its result ends at the loss formed from the whole arrays' per-bin counts and totals,
    the arguments unchanged. -/
theorem run : θ_run defs (onTc (τ := τ) (main (F := Ideal))) ⟨m, fun _ => 0, ρ⟩ fun r => ∀ c : Dev nD,
      r.2.mem ((c.tc : Thread nD τ).loc main_v27)
        = (fun _ => Ghm.lossByBins (Ghm.count (P m c) (T m c)) (Ghm.total (P m c) (T m c))
            (Ghm.nWord (Ghm.count (P m c) (T m c)) bcast_S_S10 reducesTo_S10_S_d0 h_S_ natLt_1_32))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨
      ((h c).2 main_v27 (Pipeline.mem_restRefs_of main_v27 rfl (fun w => by fin_cases w <;> decide))).trans
        ((Cert.KernelIdeal.Tail.tail_eq m c (Gout m c) (final_out m c)).trans (by
          funext _
          simp only [count_eq m c, total_eq m c])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.LibBinSums.lean ====
/-
  Sums over a finite index set split by a finite label.

  For a labelling `lab : ι → κ` of a finite index set and real weights `w` on the labels, the weighted total
  `∑ e, w (lab e) * x e` is the sum over the labels `b` of `w b` times the sum of the `x e` with label `b`.
  This is the law that joins a loss summed element by element, each element weighted by its bin's weight, to the
  same loss formed from the per-bin sums. It is stated once for a single index and once for a pair of indices
  (a row and a column), the form in which a two-dimensional array is summed.
-/
import Mathlib.Algebra.BigOperators.Ring.Finset
import Mathlib.Algebra.BigOperators.Group.Finset.Sigma
import Mathlib.Data.Fintype.BigOperators
import Mathlib.Data.Real.Basic

namespace BinSums

open Finset

/-- A weighted total over the elements, the weight depending on the element's label only, is the sum over the labels
    of the weight times the label's own total. -/
theorem sum_weight_label {ι κ : Type*} [Fintype ι] [Fintype κ] [DecidableEq κ] (lab : ι → κ) (w : κ → ℝ) (x : ι → ℝ) :
    ∑ e, w (lab e) * x e = ∑ b, w b * ∑ e, (if lab e = b then x e else 0) := by
  simp_rw [Finset.mul_sum, mul_ite, mul_zero]
  rw [Finset.sum_comm]
  refine Finset.sum_congr rfl fun e _ => ?_
  rw [Finset.sum_ite_eq]
  simp

/-- The same law for elements indexed by a row and a column: the label's total is the double sum, over rows and
    columns, of the elements carrying that label. -/
theorem sum_weight_label₂ {ι₁ ι₂ κ : Type*} [Fintype ι₁] [Fintype ι₂] [Fintype κ] [DecidableEq κ]
    (lab : ι₁ → ι₂ → κ) (w : κ → ℝ) (x : ι₁ → ι₂ → ℝ) :
    ∑ r, ∑ c, w (lab r c) * x r c = ∑ b, w b * ∑ r, ∑ c, (if lab r c = b then x r c else 0) := by
  have h := sum_weight_label (fun e : ι₁ × ι₂ => lab e.1 e.2) w (fun e : ι₁ × ι₂ => x e.1 e.2)
  rw [Fintype.sum_prod_type] at h
  rw [h]
  refine Finset.sum_congr rfl fun b _ => ?_
  rw [Fintype.sum_prod_type]

end BinSums
-- ==== Proof.LibMaskCount.lean ====
/-
  Counting the ones of a 0/1 mask two ways, at the ideal values.

  A mask of n bits can be counted in floating point — each bit converted (unsigned) to a float and the floats summed — or
  in 32-bit integers — each bit zero-extended to a word, the words added from 0 — and the integer count, or the larger of
  it and 1, converted (signed) to a float. While n is below 2^31 no word wraps and the two agree:

  * `coe_sum`: a finite sum of real numbers computed on the extended reals is the real sum;
  * `bit_cases`: a one-bit word is 0 or 1;
  * `kept k`: the number of ones, `kept_le`: at most n;
  * `fold_addi_eq`: the fold of `IntOp.addi` from 0 over the zero-extended bits is the count's word;
  * `sum_mask_eq`: the float sum of the converted bits is the count;
  * `toInt_maxsi_count`: the signed maximum of the count's word and 1 reads as the larger of the count and 1;
  * `count_eq`: max (∑ uitofp bit) 1 = sitofp (maxsi (fold of addi) 1), for n < 2^31;
  * `mul_bit_eq_select`: multiplying a value by a converted bit is selecting the value or zero.
-/
import Idealize.ShloMosaic.PureOps.Ideal
import Idealize.ShloMosaic.PureOps.Reduce

noncomputable section

open scoped BigOperators

namespace Idealize.ShloMosaic.MaskCount

open Idealize.ShloMosaic

/-- A finite sum of real numbers, computed on the extended reals, is the real sum. -/
theorem coe_sum {ι : Type} (s : Finset ι) (a : ι → ℝ) : ∑ i ∈ s, ((a i : ℝ) : EReal) = ((∑ i ∈ s, a i : ℝ) : EReal) := by
  classical
  induction s using Finset.induction_on with
  | empty => simp
  | insert i s hi ih => rw [Finset.sum_insert hi, Finset.sum_insert hi, ih, EReal.coe_add]

/-- A one-bit word is 0 or 1. -/
theorem bit_cases (b : BitVec 1) : b = 0#1 ∨ b = 1#1 := by
  revert b; decide

/-- Multiplying by the bit read as a float is selecting the value or zero. -/
theorem mul_bit_eq_select (X : EReal) (b : BitVec 1) :
    X * FloatOps.uitofp (F := Ideal) .f32 b = Scalar.select b X 0 := by
  rcases bit_cases b with h | h
  · subst h
    show X * (((0#1 : BitVec 1).toNat : ℝ) : EReal) = if (0#1 : BitVec 1) = 1 then X else 0
    rw [if_neg (by decide)]
    simp
  · subst h
    show X * (((1#1 : BitVec 1).toNat : ℝ) : EReal) = if (1#1 : BitVec 1) = 1 then X else 0
    rw [if_pos (by decide)]
    simp

section Count
variable {n : Nat} (k : Fin n → BitVec 1)

/-- The number of ones of the mask. -/
def kept : ℕ := ∑ r : Fin n, (k r).toNat

theorem kept_le : kept k ≤ n := by
  unfold kept
  calc ∑ r : Fin n, (k r).toNat ≤ ∑ _r : Fin n, 1 := Finset.sum_le_sum fun r _ => by have := (k r).isLt; omega
    _ = n := by simp

/-- Adding the bits up as 32-bit words gives the count's word. -/
theorem fold_addi_eq (s : Finset (Fin n)) :
    s.fold IntOp.addi 0#32 (fun r => (k r).setWidth 32) = BitVec.ofNat 32 (∑ r ∈ s, (k r).toNat) := by
  classical
  induction s using Finset.induction_on with
  | empty => simp
  | insert a s ha ih =>
    rw [Finset.fold_insert ha, ih, Finset.sum_insert ha]
    unfold IntOp.addi
    apply BitVec.eq_of_toNat_eq
    have h1 := (k a).isLt
    simp only [BitVec.toNat_add, BitVec.toNat_setWidth, BitVec.toNat_ofNat]
    omega

/-- The float sum of the converted bits is the count. -/
theorem sum_mask_eq : (∑ r : Fin n, FloatOps.uitofp (F := Ideal) .f32 (k r)) = (((kept k : ℕ) : ℝ) : EReal) := by
  show (∑ r : Fin n, ((((k r).toNat : ℕ) : ℝ) : EReal)) = _
  rw [coe_sum]
  unfold kept
  push_cast
  rfl

/-- The larger of the count's word and 1, read as a signed integer, is the larger of the count and 1. -/
theorem toInt_maxsi_count (N : ℕ) (hN : N < 2 ^ 31) :
    (IntOp.maxsi (BitVec.ofNat 32 N) 1#32).toInt = ((max N 1 : ℕ) : ℤ) := by
  have hN' : N < 2147483648 := by simpa using hN
  have hto : (BitVec.ofNat 32 N).toInt = (N : ℤ) := by
    rw [BitVec.toInt_eq_toNat_cond, BitVec.toNat_ofNat]
    have : N % 2 ^ 32 = N := Nat.mod_eq_of_lt (by omega)
    rw [this, if_pos (by omega)]
  unfold IntOp.maxsi
  by_cases h1 : 1 < N
  · have hs : (1#32 : BitVec 32).slt (BitVec.ofNat 32 N) = true := by
      rw [BitVec.slt, hto]; simp; omega
    rw [if_pos hs, hto]
    have : max N 1 = N := max_eq_left (by omega)
    rw [this]
  · have hs : (1#32 : BitVec 32).slt (BitVec.ofNat 32 N) = false := by
      rw [BitVec.slt, hto]; simp; omega
    rw [hs]
    have : max N 1 = 1 := max_eq_right (by omega)
    rw [this]
    simp

/-- The float count and the integer count, each with 1 as a floor, agree while the mask has fewer than 2^31 bits. -/
theorem count_eq (hn : n < 2 ^ 31) :
    max (∑ r : Fin n, FloatOps.uitofp (F := Ideal) .f32 (k r)) 1
      = FloatOps.sitofp (F := Ideal) .f32
          (IntOp.maxsi ((Finset.univ : Finset (Fin n)).fold IntOp.addi 0#32 (fun r => (k r).setWidth 32)) 1#32) := by
  rw [fold_addi_eq, sum_mask_eq]
  show _ = (((IntOp.maxsi (BitVec.ofNat 32 (∑ r ∈ Finset.univ, (k r).toNat)) 1#32).toInt : ℝ) : EReal)
  have hk : (∑ r ∈ Finset.univ, (k r).toNat) = kept k := rfl
  rw [hk, toInt_maxsi_count _ (lt_of_le_of_lt (kept_le k) hn)]
  have h1 : (1 : EReal) = ((1 : ℝ) : EReal) := EReal.coe_one.symm
  rw [h1, ← EReal.coe_strictMono.monotone.map_max]
  push_cast
  rfl

end Count

end Idealize.ShloMosaic.MaskCount

end
-- ==== Proof.GhmAlgebra.lean ====
/-
  The two forms of the gradient-harmonised loss agree for real predictions.

  Every cross-entropy term is a real number when the prediction is (the logistic of a real lies in (0, 1); the
  exponential of a real is positive, so the logarithm of one plus it is a real), every bin count is a real number
  (a finite sum of zeros and ones), and so every bin weight is a real number (quotients of reals by divisors that
  are at least one). On the real numbers the sum over the bins of the weight times the bin's total is the sum over
  the entries of the entry's bin's weight times the entry's term (distributivity and an exchange of two finite sums);
  the coercion of the reals into the extended reals carries finite sums and products across.
-/
import proofs.«153797_j67929202754192_2_alg».proof.Proof.GhmSpec
import proofs.«153797_j67929202754192_2_alg».proof.Proof.LibBinSums
import proofs.«153797_j67929202754192_2_alg».proof.Proof.LibMaskCount
import Idealize.ShloMosaic.PureOps.Ideal.Laws
import Idealize.ShloMosaic.Lib.IdealHost

noncomputable section

namespace Ghm

open Idealize.ShloMosaic Idealize.ShloMosaic.ValueIdx
open scoped BigOperators

/-! ## The constants -/

theorem c0_eq : c0 = 0 := Ideal.ofBits_zero_f32
theorem c1_eq : c1 = 1 := Ideal.ofBits_one_f32
/-- The pattern 0x4BA00000 is (2^23 + 2^21) · 2 = 20971520 = 262144 · 80. -/
theorem cN_eq : cN = ((20971520 : ℝ) : EReal) := by
  simp [Ideal.ofBits, Ideal.ieee, -EReal.coe_mul]; norm_num

/-! ## Extended reals that are real numbers -/

/-- The extended real `x` is a real number. -/
def IsReal (x : EReal) : Prop := ∃ v : ℝ, x = (v : EReal)

theorem isReal_coe (v : ℝ) : IsReal (v : EReal) := ⟨v, rfl⟩
theorem isReal_zero : IsReal 0 := ⟨0, EReal.coe_zero.symm⟩
theorem isReal_one : IsReal 1 := ⟨1, EReal.coe_one.symm⟩
theorem isReal_c0 : IsReal c0 := by rw [c0_eq]; exact isReal_zero
theorem isReal_c1 : IsReal c1 := by rw [c1_eq]; exact isReal_one
theorem isReal_cN : IsReal cN := ⟨_, cN_eq⟩

theorem isReal_add {x y : EReal} (hx : IsReal x) (hy : IsReal y) : IsReal (x + y) := by
  obtain ⟨a, rfl⟩ := hx; obtain ⟨b, rfl⟩ := hy; exact ⟨a + b, (EReal.coe_add a b).symm⟩
theorem isReal_sub {x y : EReal} (hx : IsReal x) (hy : IsReal y) : IsReal (x - y) := by
  obtain ⟨a, rfl⟩ := hx; obtain ⟨b, rfl⟩ := hy; exact ⟨a - b, (EReal.coe_sub a b).symm⟩
theorem isReal_mul {x y : EReal} (hx : IsReal x) (hy : IsReal y) : IsReal (x * y) := by
  obtain ⟨a, rfl⟩ := hx; obtain ⟨b, rfl⟩ := hy; exact ⟨a * b, (EReal.coe_mul a b).symm⟩
theorem isReal_neg {x : EReal} (hx : IsReal x) : IsReal (-x) := by
  obtain ⟨a, rfl⟩ := hx; exact ⟨-a, (EReal.coe_neg a).symm⟩
theorem isReal_max {x y : EReal} (hx : IsReal x) (hy : IsReal y) : IsReal (max x y) := by
  obtain ⟨a, rfl⟩ := hx; obtain ⟨b, rfl⟩ := hy; exact ⟨max a b, (EReal.coe_strictMono.monotone.map_max (a := a) (b := b)).symm⟩

/-- A quotient of real numbers with a divisor other than zero is a real number. -/
theorem isReal_div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  rw [Ideal.div_coe hb]
  exact ⟨a * (1 / b), (EReal.coe_mul a (1 / b)).symm⟩

/-- `log (1 + e^a)` is a real number for a real `a`: `1 + e^a` is positive. -/
theorem isReal_log1p_exp {x : EReal} (hx : IsReal x) : IsReal (Ideal.log1p (Ideal.exp x)) := by
  obtain ⟨a, rfl⟩ := hx
  have h : (1 : EReal) + Ideal.exp (a : EReal) = ((1 + Real.exp a : ℝ) : EReal) := by
    rw [Ideal.exp_coe, ← EReal.coe_one, ← EReal.coe_add]
  have hpos : ¬ (1 + Real.exp a ≤ 0) := not_le.mpr (by positivity)
  refine ⟨Real.log (1 + Real.exp a), ?_⟩
  rw [Ideal.log1p, h, Ideal.log_coe, if_neg hpos]

/-- A finite sum of real numbers is a real number. -/
theorem isReal_sum {ι : Type} (s : Finset ι) (f : ι → EReal) (h : ∀ i, IsReal (f i)) : IsReal (∑ i ∈ s, f i) := by
  choose g hg using h
  have hf : f = fun i => ((g i : ℝ) : EReal) := funext hg
  rw [hf, MaskCount.coe_sum]
  exact ⟨_, rfl⟩

/-- The larger of anything and one is not zero. -/
theorem max_c1_ne_zero (x : EReal) : max x c1 ≠ 0 := by
  rw [c1_eq]; exact (lt_of_lt_of_le zero_lt_one (le_max_right x 1)).ne'

/-! ## Every term and every weight is a real number -/

/-- The logistic of a real prediction is a real number. -/
theorem isReal_zOf {p : EReal} (hp : IsReal p) : IsReal (zOf p) := by
  obtain ⟨v, rfl⟩ := hp
  exact ⟨_, Ideal.logistic_coe v⟩

/-- The cross-entropy term of a real prediction is a real number. -/
theorem isReal_bceOf {p : EReal} (hp : IsReal p) (t : BitVec 32) : IsReal (bceOf p t) := by
  have hz := isReal_zOf hp
  have hd := isReal_sub hz isReal_c0
  unfold bceOf
  exact isReal_sub (isReal_add (isReal_max hz isReal_c0) (isReal_log1p_exp (isReal_neg (isReal_max hd (isReal_neg hd)))))
    (isReal_mul (isReal_coe _) hz)

section Array
variable (P : Arr.Idx → EReal) (T : Arr.Idx → BitVec 32)

/-- A bin's count is a real number: a finite sum of zeros and ones. -/
theorem isReal_count (b : Fin 10) : IsReal (count P T b) := by
  unfold count
  refine isReal_sum _ _ fun r => isReal_sum _ _ fun c => ?_
  by_cases h : binAt P T r c = BitVec.ofNat 32 b.val
  · rw [if_pos h]; exact isReal_one
  · rw [if_neg h]; exact isReal_zero

end Array

/-- A bin's weight before normalisation is a real number when its count is. -/
theorem isReal_binWeight {C : EReal} (hC : IsReal C) : IsReal (binWeight C) := by
  unfold binWeight Scalar.select
  by_cases h : Ideal.cmp .ogt C c0 = 1
  · rw [if_pos h]; exact isReal_div isReal_cN (isReal_max hC isReal_c1) (max_c1_ne_zero C)
  · rw [if_neg h]; exact isReal_c0

/-- A bin's weight is a real number when its count is. -/
theorem isReal_weight {C : Fin 10 → EReal} (hC : ∀ b, IsReal (C b)) (n : BitVec 32) (b : Fin 10) : IsReal (weight C n b) := by
  unfold weight normOf
  exact isReal_div (isReal_binWeight (hC b)) (isReal_max (isReal_coe _) isReal_c1) (max_c1_ne_zero _)

/-! ## The regrouping on the extended reals -/

/-- Two of the ten bin numbers give the same 32-bit word only if they are the same number. -/
theorem ofNat_fin10_inj (a b : Fin 10) : BitVec.ofNat 32 a.val = BitVec.ofNat 32 b.val ↔ a = b := by
  constructor
  · intro h
    have h2 := congrArg BitVec.toNat h
    simp only [BitVec.toNat_ofNat] at h2
    have ha := a.isLt
    have hb := b.isLt
    apply Fin.ext; omega
  · rintro rfl; rfl

/-- With real weights `w` on the labels and real terms `x`, the sum over the labels of the weight times the label's
    total equals the sum over the entries of the entry's label's weight times the entry's term — computed on the
    extended reals, where both are the coercion of one real number. -/
theorem regroup {ι₁ ι₂ κ : Type} [Fintype ι₁] [Fintype ι₂] [Fintype κ] [DecidableEq κ]
    (lab : ι₁ → ι₂ → κ) (w : κ → ℝ) (x : ι₁ → ι₂ → ℝ) :
    ∑ b : κ, (w b : EReal) * ((∑ r : ι₁, ∑ c : ι₂, (if lab r c = b then x r c else 0 : ℝ) : ℝ) : EReal)
      = ∑ r : ι₁, ∑ c : ι₂, (w (lab r c) : EReal) * (x r c : EReal) := by
  have hL : ∀ b : κ, (w b : EReal) * ((∑ r : ι₁, ∑ c : ι₂, (if lab r c = b then x r c else 0 : ℝ) : ℝ) : EReal)
      = ((w b * ∑ r : ι₁, ∑ c : ι₂, (if lab r c = b then x r c else 0 : ℝ) : ℝ) : EReal) := fun b => (EReal.coe_mul _ _).symm
  have hR : ∀ r : ι₁, ∑ c : ι₂, (w (lab r c) : EReal) * (x r c : EReal) = ((∑ c : ι₂, w (lab r c) * x r c : ℝ) : EReal) := fun r => by
    rw [← MaskCount.coe_sum]
    exact Finset.sum_congr rfl fun c _ => (EReal.coe_mul _ _).symm
  rw [Finset.sum_congr rfl fun b _ => hL b, Finset.sum_congr rfl fun r _ => hR r, MaskCount.coe_sum, MaskCount.coe_sum,
    BinSums.sum_weight_label₂ lab w x]

/-! ## The two forms of the loss agree -/

/-- For real predictions, the loss formed from the per-bin totals is the loss formed entry by entry. -/
theorem loss_eq (P : Arr.Idx → EReal) (T : Arr.Idx → BitVec 32) (hP : ∀ i, ∃ v : ℝ, P i = (v : EReal)) (n : BitVec 32) :
    lossByBins (count P T) (total P T) n = lossByEntries (count P T) n (binFin P T) (bceAt P T) := by
  -- every term and every weight is a real number
  have hx : ∀ r c, IsReal (bceAt P T r c) := fun r c => isReal_bceOf (hP (ix2 r c)) _
  have hw : ∀ b, IsReal (weight (count P T) n b) := fun b => isReal_weight (isReal_count P T) n b
  choose x hx using hx
  choose w hw using hw
  -- an entry is counted in bin b exactly when its bin number is b
  have hiff : ∀ r c (b : Fin 10), binAt P T r c = BitVec.ofNat 32 b.val ↔ binFin P T r c = b := fun r c b => by
    rw [binAt_eq P T r c]; exact ofNat_fin10_inj _ _
  -- so a bin's total is the real sum of the terms carrying its number
  have htot : ∀ b : Fin 10, total P T b
      = ((∑ r : Fin 262144, ∑ c : Fin 80, (if binFin P T r c = b then x r c else 0 : ℝ) : ℝ) : EReal) := fun b => by
    unfold total
    rw [← MaskCount.coe_sum]
    refine Finset.sum_congr rfl fun r _ => ?_
    rw [← MaskCount.coe_sum]
    refine Finset.sum_congr rfl fun c _ => ?_
    by_cases h : binFin P T r c = b
    · rw [if_pos ((hiff r c b).mpr h), if_pos h, hx]
    · rw [if_neg (mt (hiff r c b).mp h), if_neg h, EReal.coe_zero]
  unfold lossByBins lossByEntries
  refine congrArg (fun s => Ideal.div (c0 + s) cN) ?_
  have hL : ∑ b : Fin 10, weight (count P T) n b * total P T b
      = ∑ b : Fin 10, (w b : EReal) * ((∑ r : Fin 262144, ∑ c : Fin 80, (if binFin P T r c = b then x r c else 0 : ℝ) : ℝ) : EReal) :=
    Finset.sum_congr rfl fun b _ => by rw [hw b, htot b]
  have hR : ∑ r : Fin 262144, ∑ c : Fin 80, weight (count P T) n (binFin P T r c) * bceAt P T r c
      = ∑ r : Fin 262144, ∑ c : Fin 80, (w (binFin P T r c) : EReal) * (x r c : EReal) :=
    Finset.sum_congr rfl fun r _ => Finset.sum_congr rfl fun c _ => by rw [hw, hx]
  rw [hL, hR]
  exact regroup (binFin P T) w x

end Ghm

end
-- ==== Proof.LibFiniteEntries.lean ====
/-
  Real entries from a finiteness test, at the ideal values.

  A precondition "every float input is finite" is printed, per argument, as: the absolute value of the array, compared
  entry by entry below the bit pattern of plus infinity broadcast from a scalar, the bits then reduced by conjunction
  to one bit. At the ideal values an entry is an extended real, its absolute value is max x (-x), and the pattern
  0x7F800000 denotes plus infinity; max x (-x) < plus infinity fails exactly at the two infinities. So where the
  reduced bit is one, every entry of the array is a real number, whatever the array's shape.
-/
import Idealize.ShloMosaic.PureOps.Ideal
import Idealize.ShloMosaic.Lib.ValueIdx
import Idealize.ShloMosaic.Lib.ReduceAll

noncomputable section

namespace Cert.LibFiniteEntries

open Idealize.ShloMosaic Idealize.ShloMosaic.ValueIdx

/-- The rank-0 shape has one index. -/
instance subsingleton_scalar_idx : Subsingleton (⟨0, ![]⟩ : Shape).Idx := ⟨fun a b => funext fun d => d.elim0⟩

/-- The f32 bit pattern 0x7F800000 denotes plus infinity. -/
theorem inf_pattern_f32 : Ideal.ofBits .f32 0x7F800000#32 = ⊤ := by simp [Ideal.ofBits, Ideal.ieee]

/-- An extended real whose absolute value max x (-x) compares below plus infinity is a real number. -/
theorem real_of_abs_lt_inf (x : EReal)
    (h : Ideal.cmp .olt (max x (-x)) (Ideal.ofBits .f32 0x7F800000#32) = 1#1) : ∃ v : ℝ, x = v := by
  rw [inf_pattern_f32] at h
  induction x using EReal.rec with
  | bot => simp [Ideal.cmp] at h
  | top => simp [Ideal.cmp] at h
  | coe r => exact ⟨r, rfl⟩

/-- The printed test of one argument: if the conjunction, over every entry of an f32 array of any shape, of
    "absolute value below the plus-infinity pattern" is one, every entry is a real number. -/
theorem real_entries_of_all_lt_inf {s : Shape} {axes : List (Fin s.rank)} (a : FVec Ideal s .f32)
    (hb : (⟨0, ![]⟩ : Shape).BroadcastsInDim s (![] : Fin 0 → Fin s.rank))
    (h : s.ReducesTo axes ⟨0, ![]⟩) (hu : 0 < (⟨0, ![]⟩ : Shape).numel) (init : (⟨0, ![]⟩ : Shape).Idx → BitVec 1)
    (e : Host.reduce IntOp.andi
        (cmpf .olt (Host.absf a) (broadcastInDim s ![] hb (constant (F := Ideal) ⟨0, ![]⟩ .f32 0x7F800000#32))) init h hu ix0 = 1#1)
    (i : s.Idx) : ∃ v : ℝ, a i = v :=
  real_of_abs_lt_inf (a i) (Host.reduce_andi_all _ _ _ _ ix0 e i)

end Cert.LibFiniteEntries

end
-- ==== Proof.FiniteInputs.lean ====
/-
  The finiteness test of the inputs makes every prediction a real number.

  The test takes the absolute value of the float argument entry by entry, compares each below plus infinity, and
  reduces the bits by conjunction to one bit. On the extended reals the absolute value max x (-x) is below plus
  infinity exactly when x is neither infinity, so where the reduced bit is one every entry is a real number.
  (The integer argument takes no part in the test.)
-/
import proofs.«153797_j67929202754192_2_alg».proof.Pre_finite_inputs
import proofs.«153797_j67929202754192_2_alg».proof.Proof.LibFiniteEntries

noncomputable section

namespace Cert.FiniteInputs

open Idealize.ShloMosaic Idealize.ShloMosaic.ValueIdx

/-- Where the finiteness test answers one, every entry of the float argument is a real number. -/
theorem pred_real [Cert.Pre_finite_inputs.Facts] (x0 : FVec Ideal Cert.Pre_finite_inputs.S262144x80 .f32)
    (x1 : IVec Cert.Pre_finite_inputs.S262144x80 32)
    (h : Cert.Pre_finite_inputs.fn (F := Ideal) x0 x1 = fun _ => 1#1) : ∀ i, ∃ v : ℝ, x0 i = (v : EReal) := by
  intro i
  have e := congrFun h ValueIdx.ix0
  dsimp only [Cert.Pre_finite_inputs.fn] at e
  exact Cert.LibFiniteEntries.real_entries_of_all_lt_inf x0 _ _ _ _ e i

end Cert.FiniteInputs

end
-- ==== Proof.lean ====
/-
  The certificate of the gradient-harmonised classification loss kernel against its jnp reference.

  Both programs compute, from predictions p and integer labels t of shape 262144 × 80, the logistic z of p, each entry's bin
  (ten times the distance of z from t, truncated and clipped to 0 … 9) and cross-entropy term softplus z − t·z, the number C b of
  entries per bin, the weights w b = (N / max (C b) 1 if C b > 0 else 0) / max n 1 (N the number of entries, n the number of
  nonempty bins), and a loss. The reference weighs every entry's term by its bin's weight, sums over all entries and divides by N.
  The kernel, in one pass over 32 tiles of 8192 rows split between two cores, accumulates per core and per bin the count and the
  sum of the terms; the host lines after it add the two cores and form the sum over bins of w b times the bin's sum of terms, over N.
  The two agree because every term and every weight is a real number when the predictions are finite, so a weight can be
  taken out of the sum over its bin.

  The frames of the two kernel programs are the generated ones; the reference's frame is its run with the result dropped;
  the idealization rewrote nothing.
-/
import proofs.«153797_j67929202754192_2_alg».proof.Defs
import proofs.«153797_j67929202754192_2_alg».proof.Proof.Gen.Kernel
import proofs.«153797_j67929202754192_2_alg».proof.Proof.Gen.Kernel.Skeleton
import proofs.«153797_j67929202754192_2_alg».proof.Proof.Gen.Kernel.Launch
import proofs.«153797_j67929202754192_2_alg».proof.Proof.Gen.Kernel.Points
import proofs.«153797_j67929202754192_2_alg».proof.Proof.Gen.Kernel.Frame
import proofs.«153797_j67929202754192_2_alg».proof.Proof.Gen.KernelIdeal
import proofs.«153797_j67929202754192_2_alg».proof.Proof.Gen.KernelIdeal.Skeleton
import proofs.«153797_j67929202754192_2_alg».proof.Proof.Gen.KernelIdeal.Launch
import proofs.«153797_j67929202754192_2_alg».proof.Proof.Gen.KernelIdeal.Points
import proofs.«153797_j67929202754192_2_alg».proof.Proof.Gen.KernelIdeal.Frame
import proofs.«153797_j67929202754192_2_alg».proof.Proof.Gen.ReferenceIdeal
import proofs.«153797_j67929202754192_2_alg».proof.Proof.Gen.Pre_finite_inputs
import proofs.«153797_j67929202754192_2_alg».proof.Proof.RefRunPatched
import proofs.«153797_j67929202754192_2_alg».proof.Proof.RefValue
import proofs.«153797_j67929202754192_2_alg».proof.Proof.KernelValue
import proofs.«153797_j67929202754192_2_alg».proof.Proof.GhmAlgebra
import proofs.«153797_j67929202754192_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- At the ideal instance the kernel program ends at the loss formed from the per-bin totals and the reference at the loss formed
    entry by entry, of arguments that agree; the predictions being finite, the two are one number. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.RunP.run (F := Ideal) m' ρ')
  have hreal := Cert.FiniteInputs.pred_real _ _ (hpre c)
  refine (Cert.ReferenceIdeal.RefValue.result_eq m' c).trans ?_
  rw [(hagree c).1, (hagree c).2]
  funext _
  exact (Ghm.loss_eq _ _ hreal _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
